-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50 : Shape := ⟨2, ![2048, 50]⟩
abbrev S2000000 : Shape := ⟨1, ![2000000]⟩
abbrev S512x2048 : Shape := ⟨2, ![512, 2048]⟩
abbrev S2048x2048 : Shape := ⟨2, ![2048, 2048]⟩
abbrev S2048x1000 : Shape := ⟨2, ![2048, 1000]⟩
abbrev S_ : Shape := ⟨0, ![]⟩

class Facts : Prop where
  bcast_S_S2048x50 : S_.BroadcastsInDim S2048x50 (![] : Fin 0 → Fin S2048x50.rank)
  reducesTo_S2048x50_S_d0_1 : S2048x50.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : IVec S2048x50 32) (main_arg1 : FVec F S2048x50 .f32) (main_arg2 : FVec F S2000000 .f32) (main_arg3 : IVec S512x2048 32) (main_arg4 : IVec S2048x2048 32) (main_arg5 : IVec S2048x1000 32) : IVec S_ 1 :=
  let main_v0 : FVec F S2048x50 .f32 := Host.absf main_arg1
  let main_cst : FVec F S_ .f32 := constant S_ .f32 0x7F800000#32
  let main_v1 : FVec F S2048x50 .f32 := broadcastInDim S2048x50 ![] bcast_S_S2048x50 main_cst
  let main_v2 : IVec S2048x50 1 := cmpf .olt main_v0 main_v1
  let main_c : IVec S_ 1 := constantI S_ 1 1#1
  let main_v3 : IVec S_ 1 := (fun x v => Host.reduce IntOp.andi x v reducesTo_S2048x50_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  main_v8
-- ==== Kernel.lean ====
abbrev S2048x50 : Shape := ⟨2, ![2048, 50]⟩
abbrev S2000000 : Shape := ⟨1, ![2000000]⟩
abbrev S512x2048 : Shape := ⟨2, ![512, 2048]⟩
abbrev S2048x2048 : Shape := ⟨2, ![2048, 2048]⟩
abbrev S2048x1000 : Shape := ⟨2, ![2048, 1000]⟩
abbrev S16 : Shape := ⟨1, ![16]⟩
abbrev S2048x50x1 : Shape := ⟨3, ![2048, 50, 1]⟩
abbrev S_ : Shape := ⟨0, ![]⟩
abbrev S1x1x16 : Shape := ⟨3, ![1, 1, 16]⟩
abbrev S2048x50x16 : Shape := ⟨3, ![2048, 50, 16]⟩
abbrev S2048x50x16x1 : Shape := ⟨4, ![2048, 50, 16, 1]⟩
abbrev S32 : Shape := ⟨1, ![32]⟩
abbrev S1x1x1x32 : Shape := ⟨4, ![1, 1, 1, 32]⟩
abbrev S2048x50x16x32 : Shape := ⟨4, ![2048, 50, 16, 32]⟩
abbrev S2048x50x16x32x1 : Shape := ⟨5, ![2048, 50, 16, 32, 1]⟩
abbrev S2048x50x512 : Shape := ⟨3, ![2048, 50, 512]⟩
abbrev S2048x512 : Shape := ⟨2, ![2048, 512]⟩
abbrev S128x50x512 : Shape := ⟨3, ![128, 50, 512]⟩
abbrev S128x50 : Shape := ⟨2, ![128, 50]⟩
abbrev S128x512 : Shape := ⟨2, ![128, 512]⟩
abbrev S128x10x512 : Shape := ⟨3, ![128, 10, 512]⟩
abbrev S128x10 : Shape := ⟨2, ![128, 10]⟩
abbrev S128x10x1 : Shape := ⟨3, ![128, 10, 1]⟩
abbrev S512x2048x1 : Shape := ⟨3, ![512, 2048, 1]⟩
abbrev S2048x2048x1 : Shape := ⟨3, ![2048, 2048, 1]⟩
abbrev S2048x1000x1 : Shape := ⟨3, ![2048, 1000, 1]⟩
abbrev S2048x1024 : Shape := ⟨2, ![2048, 1024]⟩
abbrev S512x512 : Shape := ⟨2, ![512, 512]⟩
abbrev S512x1024 : Shape := ⟨2, ![512, 1024]⟩

abbrev nBuf : Space → Nat
  | .hbm => 123
  | .vmem => 13
  | .smem => 0
  | _ => 0

abbrev bufTy : (tb : Table) → Fin (tcTables nBuf tb) → BufTy
  | .hbm, ⟨0, _⟩ => ⟨S2048x50, .i32⟩
  | .hbm, ⟨1, _⟩ => ⟨S2048x50, .f32⟩
  | .hbm, ⟨2, _⟩ => ⟨S2000000, .f32⟩
  | .hbm, ⟨3, _⟩ => ⟨S512x2048, .i32⟩
  | .hbm, ⟨4, _⟩ => ⟨S2048x2048, .i32⟩
  | .hbm, ⟨5, _⟩ => ⟨S2048x1000, .i32⟩
  | .hbm, ⟨6, _⟩ => ⟨S2000000, .bf16⟩
  | .hbm, ⟨7, _⟩ => ⟨S16, .i32⟩
  | .hbm, ⟨8, _⟩ => ⟨S2048x50x1, .i32⟩
  | .hbm, ⟨9, _⟩ => ⟨S_, .i32⟩
  | .hbm, ⟨10, _⟩ => ⟨S2048x50x1, .i32⟩
  | .hbm, ⟨11, _⟩ => ⟨S2048x50x1, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S1x1x16, .i32⟩
  | .hbm, ⟨16, _⟩ => ⟨S2048x50x16, .i32⟩
  | .hbm, ⟨17, _⟩ => ⟨S2048x50x16, .i32⟩
  | .hbm, ⟨18, _⟩ => ⟨S2048x50x16, .i32⟩
  | .hbm, ⟨19, _⟩ => ⟨S_, .i32⟩
  | .hbm, ⟨20, _⟩ => ⟨S2048x50x16, .i32⟩
  | .hbm, ⟨21, _⟩ => ⟨S2048x50x16, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S2048x50x16, .i32⟩
  | .hbm, ⟨29, _⟩ => ⟨S2048x50x16, .i32⟩
  | .hbm, ⟨30, _⟩ => ⟨S_, .i32⟩
  | .hbm, ⟨31, _⟩ => ⟨S2048x50x16, .i32⟩
  | .hbm, ⟨32, _⟩ => ⟨S2048x50x16, .i1⟩
  | .hbm, ⟨33, _⟩ => ⟨S_, .i32⟩
  | .hbm, ⟨34, _⟩ => ⟨S2048x50x16, .i32⟩
  | .hbm, ⟨35, _⟩ => ⟨S2048x50x16, .i1⟩
  | .hbm, ⟨36, _⟩ => ⟨S_, .i32⟩
  | .hbm, ⟨37, _⟩ => ⟨S_, .i1⟩
  | .hbm, ⟨38, _⟩ => ⟨S2048x50x16, .i1⟩
  | .hbm, ⟨39, _⟩ => ⟨S2048x50x16, .i1⟩
  | .hbm, ⟨40, _⟩ => ⟨S2048x50x16, .i1⟩
  | .hbm, ⟨41, _⟩ => ⟨S2048x50x16, .i32⟩
  | .hbm, ⟨42, _⟩ => ⟨S2048x50x16, .i32⟩
  | .hbm, ⟨43, _⟩ => ⟨S2048x50x16, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S2048x50x16, .i32⟩
  | .hbm, ⟨51, _⟩ => ⟨S2048x50x16, .i32⟩
  | .hbm, ⟨52, _⟩ => ⟨S_, .i32⟩
  | .hbm, ⟨53, _⟩ => ⟨S2048x50x16, .i32⟩
  | .hbm, ⟨54, _⟩ => ⟨S2048x50x16, .i1⟩
  | .hbm, ⟨55, _⟩ => ⟨S_, .i32⟩
  | .hbm, ⟨56, _⟩ => ⟨S2048x50x16, .i32⟩
  | .hbm, ⟨57, _⟩ => ⟨S2048x50x16, .i1⟩
  | .hbm, ⟨58, _⟩ => ⟨S_, .i32⟩
  | .hbm, ⟨59, _⟩ => ⟨S_, .i1⟩
  | .hbm, ⟨60, _⟩ => ⟨S2048x50x16, .i1⟩
  | .hbm, ⟨61, _⟩ => ⟨S2048x50x16, .i1⟩
  | .hbm, ⟨62, _⟩ => ⟨S2048x50x16, .i1⟩
  | .hbm, ⟨63, _⟩ => ⟨S2048x50x16, .i32⟩
  | .hbm, ⟨64, _⟩ => ⟨S2048x50x16, .i32⟩
  | .hbm, ⟨65, _⟩ => ⟨S2048x50x16, .i32⟩
  | .hbm, ⟨66, _⟩ => ⟨S2048x50x16x1, .i32⟩
  | .hbm, ⟨67, _⟩ => ⟨S32, .i32⟩
  | .hbm, ⟨68, _⟩ => ⟨S1x1x1x32, .i32⟩
  | .hbm, ⟨69, _⟩ => ⟨S2048x50x16x32, .i32⟩
  | .hbm, ⟨70, _⟩ => ⟨S2048x50x16x32, .i32⟩
  | .hbm, ⟨71, _⟩ => ⟨S2048x50x16x32, .i32⟩
  | .hbm, ⟨72, _⟩ => ⟨S_, .i32⟩
  | .hbm, ⟨73, _⟩ => ⟨S2048x50x16x32, .i32⟩
  | .hbm, ⟨74, _⟩ => ⟨S2048x50x16x32, .i1⟩
  | .hbm, ⟨75, _⟩ => ⟨S_, .i32⟩
  | .hbm, ⟨76, _⟩ => ⟨S2048x50x16x32, .i32⟩
  | .hbm, ⟨77, _⟩ => ⟨S2048x50x16x32, .i32⟩
  | .hbm, ⟨78, _⟩ => ⟨S2048x50x16x32, .i32⟩
  | .hbm, ⟨79, _⟩ => ⟨S2048x50x16x32x1, .i32⟩
  | .hbm, ⟨80, _⟩ => ⟨S2048x50x16x32, .bf16⟩
  | .hbm, ⟨81, _⟩ => ⟨S2048x50x512, .bf16⟩
  | .hbm, ⟨82, _⟩ => ⟨S_, .i32⟩
  | .hbm, ⟨83, _⟩ => ⟨S2048x50, .i32⟩
  | .hbm, ⟨84, _⟩ => ⟨S2048x50, .i1⟩
  | .hbm, ⟨85, _⟩ => ⟨S2048x50x1, .i1⟩
  | .hbm, ⟨86, _⟩ => ⟨S_, .bf16⟩
  | .hbm, ⟨87, _⟩ => ⟨S2048x50x512, .i1⟩
  | .hbm, ⟨88, _⟩ => ⟨S2048x50x512, .bf16⟩
  | .hbm, ⟨89, _⟩ => ⟨S2048x50x512, .bf16⟩
  | .hbm, ⟨90, _⟩ => ⟨S2048x512, .bf16⟩
  | .hbm, ⟨91, _⟩ => ⟨S_, .i32⟩
  | .hbm, ⟨92, _⟩ => ⟨S512x2048, .i32⟩
  | .hbm, ⟨93, _⟩ => ⟨S512x2048, .i1⟩
  | .hbm, ⟨94, _⟩ => ⟨S_, .i32⟩
  | .hbm, ⟨95, _⟩ => ⟨S512x2048, .i32⟩
  | .hbm, ⟨96, _⟩ => ⟨S512x2048, .i32⟩
  | .hbm, ⟨97, _⟩ => ⟨S512x2048, .i32⟩
  | .hbm, ⟨98, _⟩ => ⟨S512x2048x1, .i32⟩
  | .hbm, ⟨99, _⟩ => ⟨S512x2048, .bf16⟩
  | .hbm, ⟨100, _⟩ => ⟨S_, .i32⟩
  | .hbm, ⟨101, _⟩ => ⟨S2048x2048, .i32⟩
  | .hbm, ⟨102, _⟩ => ⟨S2048x2048, .i1⟩
  | .hbm, ⟨103, _⟩ => ⟨S_, .i32⟩
  | .hbm, ⟨104, _⟩ => ⟨S2048x2048, .i32⟩
  | .hbm, ⟨105, _⟩ => ⟨S2048x2048, .i32⟩
  | .hbm, ⟨106, _⟩ => ⟨S2048x2048, .i32⟩
  | .hbm, ⟨107, _⟩ => ⟨S2048x2048x1, .i32⟩
  | .hbm, ⟨108, _⟩ => ⟨S2048x2048, .bf16⟩
  | .hbm, ⟨109, _⟩ => ⟨S_, .i32⟩
  | .hbm, ⟨110, _⟩ => ⟨S2048x1000, .i32⟩
  | .hbm, ⟨111, _⟩ => ⟨S2048x1000, .i1⟩
  | .hbm, ⟨112, _⟩ => ⟨S_, .i32⟩
  | .hbm, ⟨113, _⟩ => ⟨S2048x1000, .i32⟩
  | .hbm, ⟨114, _⟩ => ⟨S2048x1000, .i32⟩
  | .hbm, ⟨115, _⟩ => ⟨S2048x1000, .i32⟩
  | .hbm, ⟨116, _⟩ => ⟨S2048x1000x1, .i32⟩
  | .hbm, ⟨117, _⟩ => ⟨S2048x1000, .bf16⟩
  | .hbm, ⟨118, _⟩ => ⟨S_, .i32⟩
  | .hbm, ⟨119, _⟩ => ⟨S_, .bf16⟩
  | .hbm, ⟨120, _⟩ => ⟨S2048x1024, .bf16⟩
  | .hbm, ⟨121, _⟩ => ⟨S2048x1024, .f32⟩
  | .hbm, ⟨122, _⟩ => ⟨S2048x1000, .f32⟩
  | .local _ .vmem, ⟨0, _⟩ => ⟨S128x50x512, .bf16⟩
  | .local _ .vmem, ⟨1, _⟩ => ⟨S128x50x512, .bf16⟩
  | .local _ .vmem, ⟨2, _⟩ => ⟨S128x50, .f32⟩
  | .local _ .vmem, ⟨3, _⟩ => ⟨S128x50, .f32⟩
  | .local _ .vmem, ⟨4, _⟩ => ⟨S128x512, .bf16⟩
  | .local _ .vmem, ⟨5, _⟩ => ⟨S128x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S2048x2048, .bf16⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | _, _ => ⟨S2048x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v13 : Ref sig .tc := ⟨.hbm, 43, rfl⟩
abbrev main_c_3 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_c_4 : Ref sig .tc := ⟨.hbm, 72, rfl⟩
abbrev main_v21 : Ref sig .tc := ⟨.hbm, 73, rfl⟩
abbrev main_v22 : Ref sig .tc := ⟨.hbm, 74, rfl⟩
abbrev main_c_5 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_c_6 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst : Ref sig .tc := ⟨.hbm, 86, rfl⟩
abbrev main_call2_v0 : Ref sig .tc := ⟨.hbm, 87, rfl⟩
abbrev main_call2_v1 : Ref sig .tc := ⟨.hbm, 88, rfl⟩
abbrev main_v32 : Ref sig .tc := ⟨.hbm, 89, rfl⟩
abbrev main_v33 : Ref sig .tc := ⟨.hbm, 90, rfl⟩
abbrev main_c_7 : Ref sig .tc := ⟨.hbm, 91, rfl⟩
abbrev main_v34 : Ref sig .tc := ⟨.hbm, 92, rfl⟩
abbrev main_v35 : Ref sig .tc := ⟨.hbm, 93, rfl⟩
abbrev main_c_8 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_c_9 : Ref sig .tc := ⟨.hbm, 100, rfl⟩
abbrev main_v41 : Ref sig .tc := ⟨.hbm, 101, rfl⟩
abbrev main_v42 : Ref sig .tc := ⟨.hbm, 102, rfl⟩
abbrev main_c_10 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_c_11 : Ref sig .tc := ⟨.hbm, 109, rfl⟩
abbrev main_v48 : Ref sig .tc := ⟨.hbm, 110, rfl⟩
abbrev main_v49 : Ref sig .tc := ⟨.hbm, 111, rfl⟩
abbrev main_c_12 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_13 : Ref sig .tc := ⟨.hbm, 118, rfl⟩
abbrev main_call3_v0 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x50x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  bcast_S2048x50_S2048x50x1_0_1 : S2048x50.BroadcastsInDim S2048x50x1 (![0, 1] : Fin 2 → Fin S2048x50x1.rank)
  bcast_S_S2048x50x1 : S_.BroadcastsInDim S2048x50x1 (![] : Fin 0 → Fin S2048x50x1.rank)
  bcast_S_S16 : S_.BroadcastsInDim S16 (![] : Fin 0 → Fin S16.rank)
  bcast_S16_S1x1x16_2 : S16.BroadcastsInDim S1x1x16 (![2] : Fin 1 → Fin S1x1x16.rank)
  bcast_S2048x50x1_S2048x50x16_0_1_2 : S2048x50x1.BroadcastsInDim S2048x50x16 (![0, 1, 2] : Fin 3 → Fin S2048x50x16.rank)
  bcast_S1x1x16_S2048x50x16_0_1_2 : S1x1x16.BroadcastsInDim S2048x50x16 (![0, 1, 2] : Fin 3 → Fin S2048x50x16.rank)
  bcast_S_S2048x50x16 : S_.BroadcastsInDim S2048x50x16 (![] : Fin 0 → Fin S2048x50x16.rank)
  bcast_S2048x50x16_S2048x50x16x1_0_1_2 : S2048x50x16.BroadcastsInDim S2048x50x16x1 (![0, 1, 2] : Fin 3 → Fin S2048x50x16x1.rank)
  bcast_S32_S1x1x1x32_3 : S32.BroadcastsInDim S1x1x1x32 (![3] : Fin 1 → Fin S1x1x1x32.rank)
  bcast_S2048x50x16x1_S2048x50x16x32_0_1_2_3 : S2048x50x16x1.BroadcastsInDim S2048x50x16x32 (![0, 1, 2, 3] : Fin 4 → Fin S2048x50x16x32.rank)
  bcast_S1x1x1x32_S2048x50x16x32_0_1_2_3 : S1x1x1x32.BroadcastsInDim S2048x50x16x32 (![0, 1, 2, 3] : Fin 4 → Fin S2048x50x16x32.rank)
  bcast_S_S2048x50x16x32 : S_.BroadcastsInDim S2048x50x16x32 (![] : Fin 0 → Fin S2048x50x16x32.rank)
  bcast_S2048x50x16x32_S2048x50x16x32x1_0_1_2_3 : S2048x50x16x32.BroadcastsInDim S2048x50x16x32x1 (![0, 1, 2, 3] : Fin 4 → Fin S2048x50x16x32x1.rank)
  shapeCasts_S2048x50x16x32_S2048x50x512 : S2048x50x16x32.ShapeCasts S2048x50x512
  bcast_S_S2048x50 : S_.BroadcastsInDim S2048x50 (![] : Fin 0 → Fin S2048x50.rank)
  bcast_S2048x50x1_S2048x50x512_0_1_2 : S2048x50x1.BroadcastsInDim S2048x50x512 (![0, 1, 2] : Fin 3 → Fin S2048x50x512.rank)
  bcast_S_S2048x50x512 : S_.BroadcastsInDim S2048x50x512 (![] : Fin 0 → Fin S2048x50x512.rank)
  inb_S128x50x512_S128x10x512_0_0_0 : ∀ a, (![0, 0, 0] : Fin 3 → Nat) a + S128x10x512.size a ≤ S128x50x512.size a
  h_S128x10x512 : 0 < S128x10x512.numel
  shapeCasts_S128x10x512_S128x10x512 : S128x10x512.ShapeCasts S128x10x512
  inb_S128x50_S128x10_0_0 : ∀ a, (![0, 0] : Fin 2 → Nat) a + S128x10.size a ≤ S128x50.size a
  h_S128x10 : 0 < S128x10.numel
  shapeCasts_S128x10_S128x10x1 : S128x10.ShapeCasts S128x10x1
  broadcasts_S128x10x1_S128x10x512 : S128x10x1.Broadcasts S128x10x512
  reduces_S128x10x512_S128x512 : S128x10x512.Reduces [1] S128x512
  inb_S128x50x512_S128x10x512_0_10_0 : ∀ a, (![0, 10, 0] : Fin 3 → Nat) a + S128x10x512.size a ≤ S128x50x512.size a
  inb_S128x50_S128x10_0_10 : ∀ a, (![0, 10] : Fin 2 → Nat) a + S128x10.size a ≤ S128x50.size a
  inb_S128x50x512_S128x10x512_0_20_0 : ∀ a, (![0, 20, 0] : Fin 3 → Nat) a + S128x10x512.size a ≤ S128x50x512.size a
  inb_S128x50_S128x10_0_20 : ∀ a, (![0, 20] : Fin 2 → Nat) a + S128x10.size a ≤ S128x50.size a
  inb_S128x50x512_S128x10x512_0_30_0 : ∀ a, (![0, 30, 0] : Fin 3 → Nat) a + S128x10x512.size a ≤ S128x50x512.size a
  inb_S128x50_S128x10_0_30 : ∀ a, (![0, 30] : Fin 2 → Nat) a + S128x10.size a ≤ S128x50.size a
  inb_S128x50x512_S128x10x512_0_40_0 : ∀ a, (![0, 40, 0] : Fin 3 → Nat) a + S128x10x512.size a ≤ S128x50x512.size a
  inb_S128x50_S128x10_0_40 : ∀ a, (![0, 40] : Fin 2 → Nat) a + S128x10.size a ≤ S128x50.size a
  inb_S128x512_S128x512_0_0 : ∀ a, (![0, 0] : Fin 2 → Nat) a + S128x512.size a ≤ S128x512.size a
  h_S128x512 : 0 < S128x512.numel
  packedbf16_S128x512_S128x512_0_0 : (Rect.unit (s := S128x512) ![0, 0] S128x512.size inb_S128x512_S128x512_0_0).PackedRows (EltTy.packing .bf16)
  bcast_S_S512x2048 : S_.BroadcastsInDim S512x2048 (![] : Fin 0 → Fin S512x2048.rank)
  bcast_S512x2048_S512x2048x1_0_1 : S512x2048.BroadcastsInDim S512x2048x1 (![0, 1] : Fin 2 → Fin S512x2048x1.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S_S2048x1000 : S_.BroadcastsInDim S2048x1000 (![] : Fin 0 → Fin S2048x1000.rank)
  bcast_S2048x1000_S2048x1000x1_0_1 : S2048x1000.BroadcastsInDim S2048x1000x1 (![0, 1] : Fin 2 → Fin S2048x1000x1.rank)
  pads_S2048x1000_S2048x1024_000_0240 : S2048x1000.Pads (![0, 0] : Fin 2 → Nat) ![0, 24] ![0, 0] S2048x1024
  h_S_ : 0 < S_.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  slices_S2048x1024_S2048x1000_0_0 : S2048x1024.Slices ![0, 0] S2048x1000
  gather_S2000000_S2048x50x16x32x1_S2048x50x16x32_n_0_n_n_0_4_1_wf : GatherDims.WF S2000000 S2048x50x16x32x1 S2048x50x16x32 [] [0] [] [0] [] 4 ![1]
  gather_S2000000_S512x2048x1_S512x2048_n_0_n_n_0_2_1_wf : GatherDims.WF S2000000 S512x2048x1 S512x2048 [] [0] [] [0] [] 2 ![1]
  gather_S2000000_S2048x2048x1_S2048x2048_n_0_n_n_0_2_1_wf : GatherDims.WF S2000000 S2048x2048x1 S2048x2048 [] [0] [] [0] [] 2 ![1]
  gather_S2000000_S2048x1000x1_S2048x1000_n_0_n_n_0_2_1_wf : GatherDims.WF S2000000 S2048x1000x1 S2048x1000 [] [0] [] [0] [] 2 ![1]
  dot_S512x512_S512x2048_S512x2048_1_0_0_1_n_n_wf : DotDims.WF S512x512 S512x2048 S512x2048 [1] [0] [0] [1] [] []
  dot_S512x2048_S2048x2048_S512x2048_1_0_0_1_n_n_wf : DotDims.WF S512x2048 S2048x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50x512.size a ≤ S2048x50x512.size a
  hwx0_0 : ∀ i : grid0.Coords, EltTy.bits .bf16 = 32 ∨ (Rect.block (s := S2048x50x512) S128x50x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S2048x50.size a
  hwx0_1 : ∀ i : grid0.Coords, EltTy.bits .f32 = 32 ∨ (Rect.block (s := S2048x50) S128x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S2048x512.size a
  hwx0_2 : ∀ i : grid0.Coords, EltTy.bits .bf16 = 32 ∨ (Rect.block (s := S2048x512) S128x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x512.size a
  hwx1_0 : ∀ i : grid1.Coords, EltTy.bits .bf16 = 32 ∨ (Rect.block (s := S2048x512) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .bf16 = 32 ∨ (Rect.block (s := S512x2048) S512x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S2048x1024.size a
  hwx1_3 : ∀ i : grid1.Coords, EltTy.bits .bf16 = 32 ∨ (Rect.block (s := S2048x1024) S2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S2048x1024.size a
  hwx1_4 : ∀ i : grid1.Coords, EltTy.bits .f32 = 32 ∨ (Rect.block (s := S2048x1024) S512x1024.size (cc1_transform_4 i) (hinb1_4 i)).WholeWords (EltTy.packing .f32)

variable [Facts₀]

def gather_S2000000_S2048x50x16x32x1_S2048x50x16x32_n_0_n_n_0_4_1 : GatherDims S2000000 S2048x50x16x32x1 S2048x50x16x32 where
  offsetDims := []
  collapsedSliceDims := [0]
  operandBatchingDims := []
  startIndicesBatchingDims := []
  startIndexMap := [0]
  indexVectorDim := 4
  sliceSizes := ![1]
  wf := gather_S2000000_S2048x50x16x32x1_S2048x50x16x32_n_0_n_n_0_4_1_wf
def gather_S2000000_S512x2048x1_S512x2048_n_0_n_n_0_2_1 : GatherDims S2000000 S512x2048x1 S512x2048 where
  offsetDims := []
  collapsedSliceDims := [0]
  operandBatchingDims := []
  startIndicesBatchingDims := []
  startIndexMap := [0]
  indexVectorDim := 2
  sliceSizes := ![1]
  wf := gather_S2000000_S512x2048x1_S512x2048_n_0_n_n_0_2_1_wf
def gather_S2000000_S2048x2048x1_S2048x2048_n_0_n_n_0_2_1 : GatherDims S2000000 S2048x2048x1 S2048x2048 where
  offsetDims := []
  collapsedSliceDims := [0]
  operandBatchingDims := []
  startIndicesBatchingDims := []
  startIndexMap := [0]
  indexVectorDim := 2
  sliceSizes := ![1]
  wf := gather_S2000000_S2048x2048x1_S2048x2048_n_0_n_n_0_2_1_wf
def gather_S2000000_S2048x1000x1_S2048x1000_n_0_n_n_0_2_1 : GatherDims S2000000 S2048x1000x1 S2048x1000 where
  offsetDims := []
  collapsedSliceDims := [0]
  operandBatchingDims := []
  startIndicesBatchingDims := []
  startIndexMap := [0]
  indexVectorDim := 2
  sliceSizes := ![1]
  wf := gather_S2000000_S2048x1000x1_S2048x1000_n_0_n_n_0_2_1_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v32) S128x50x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S2048x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x50 : Shape := ⟨2, ![2048, 50]⟩
abbrev S2000000 : Shape := ⟨1, ![2000000]⟩
abbrev S512x2048 : Shape := ⟨2, ![512, 2048]⟩
abbrev S2048x2048 : Shape := ⟨2, ![2048, 2048]⟩
abbrev S2048x1000 : Shape := ⟨2, ![2048, 1000]⟩
abbrev S16 : Shape := ⟨1, ![16]⟩
abbrev S2048x50x1 : Shape := ⟨3, ![2048, 50, 1]⟩
abbrev S_ : Shape := ⟨0, ![]⟩
abbrev S1x1x16 : Shape := ⟨3, ![1, 1, 16]⟩
abbrev S2048x50x16 : Shape := ⟨3, ![2048, 50, 16]⟩
abbrev S2048x50x16x1 : Shape := ⟨4, ![2048, 50, 16, 1]⟩
abbrev S32 : Shape := ⟨1, ![32]⟩
abbrev S1x1x1x32 : Shape := ⟨4, ![1, 1, 1, 32]⟩
abbrev S2048x50x16x32 : Shape := ⟨4, ![2048, 50, 16, 32]⟩
abbrev S2048x50x16x32x1 : Shape := ⟨5, ![2048, 50, 16, 32, 1]⟩
abbrev S2048x50x512 : Shape := ⟨3, ![2048, 50, 512]⟩
abbrev S2048x512 : Shape := ⟨2, ![2048, 512]⟩
abbrev S512x2048x1 : Shape := ⟨3, ![512, 2048, 1]⟩
abbrev S2048x2048x1 : Shape := ⟨3, ![2048, 2048, 1]⟩
abbrev S2048x1000x1 : Shape := ⟨3, ![2048, 1000, 1]⟩

abbrev nBuf : Space → Nat
  | .hbm => 125
  | .vmem => 0
  | .smem => 0
  | _ => 0

abbrev bufTy : (tb : Table) → Fin (tcTables nBuf tb) → BufTy
  | .hbm, ⟨0, _⟩ => ⟨S2048x50, .i32⟩
  | .hbm, ⟨1, _⟩ => ⟨S2048x50, .f32⟩
  | .hbm, ⟨2, _⟩ => ⟨S2000000, .f32⟩
  | .hbm, ⟨3, _⟩ => ⟨S512x2048, .i32⟩
  | .hbm, ⟨4, _⟩ => ⟨S2048x2048, .i32⟩
  | .hbm, ⟨5, _⟩ => ⟨S2048x1000, .i32⟩
  | .hbm, ⟨6, _⟩ => ⟨S16, .i32⟩
  | .hbm, ⟨7, _⟩ => ⟨S2048x50x1, .i32⟩
  | .hbm, ⟨8, _⟩ => ⟨S_, .i32⟩
  | .hbm, ⟨9, _⟩ => ⟨S2048x50x1, .i32⟩
  | .hbm, ⟨10, _⟩ => ⟨S2048x50x1, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S1x1x16, .i32⟩
  | .hbm, ⟨15, _⟩ => ⟨S2048x50x16, .i32⟩
  | .hbm, ⟨16, _⟩ => ⟨S2048x50x16, .i32⟩
  | .hbm, ⟨17, _⟩ => ⟨S2048x50x16, .i32⟩
  | .hbm, ⟨18, _⟩ => ⟨S_, .i32⟩
  | .hbm, ⟨19, _⟩ => ⟨S2048x50x16, .i32⟩
  | .hbm, ⟨20, _⟩ => ⟨S2048x50x16, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S2048x50x16, .i32⟩
  | .hbm, ⟨28, _⟩ => ⟨S2048x50x16, .i32⟩
  | .hbm, ⟨29, _⟩ => ⟨S_, .i32⟩
  | .hbm, ⟨30, _⟩ => ⟨S2048x50x16, .i32⟩
  | .hbm, ⟨31, _⟩ => ⟨S2048x50x16, .i1⟩
  | .hbm, ⟨32, _⟩ => ⟨S_, .i32⟩
  | .hbm, ⟨33, _⟩ => ⟨S2048x50x16, .i32⟩
  | .hbm, ⟨34, _⟩ => ⟨S2048x50x16, .i1⟩
  | .hbm, ⟨35, _⟩ => ⟨S_, .i32⟩
  | .hbm, ⟨36, _⟩ => ⟨S_, .i1⟩
  | .hbm, ⟨37, _⟩ => ⟨S2048x50x16, .i1⟩
  | .hbm, ⟨38, _⟩ => ⟨S2048x50x16, .i1⟩
  | .hbm, ⟨39, _⟩ => ⟨S2048x50x16, .i1⟩
  | .hbm, ⟨40, _⟩ => ⟨S2048x50x16, .i32⟩
  | .hbm, ⟨41, _⟩ => ⟨S2048x50x16, .i32⟩
  | .hbm, ⟨42, _⟩ => ⟨S2048x50x16, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S2048x50x16, .i32⟩
  | .hbm, ⟨50, _⟩ => ⟨S2048x50x16, .i32⟩
  | .hbm, ⟨51, _⟩ => ⟨S_, .i32⟩
  | .hbm, ⟨52, _⟩ => ⟨S2048x50x16, .i32⟩
  | .hbm, ⟨53, _⟩ => ⟨S2048x50x16, .i1⟩
  | .hbm, ⟨54, _⟩ => ⟨S_, .i32⟩
  | .hbm, ⟨55, _⟩ => ⟨S2048x50x16, .i32⟩
  | .hbm, ⟨56, _⟩ => ⟨S2048x50x16, .i1⟩
  | .hbm, ⟨57, _⟩ => ⟨S_, .i32⟩
  | .hbm, ⟨58, _⟩ => ⟨S_, .i1⟩
  | .hbm, ⟨59, _⟩ => ⟨S2048x50x16, .i1⟩
  | .hbm, ⟨60, _⟩ => ⟨S2048x50x16, .i1⟩
  | .hbm, ⟨61, _⟩ => ⟨S2048x50x16, .i1⟩
  | .hbm, ⟨62, _⟩ => ⟨S2048x50x16, .i32⟩
  | .hbm, ⟨63, _⟩ => ⟨S2048x50x16, .i32⟩
  | .hbm, ⟨64, _⟩ => ⟨S2048x50x16, .i32⟩
  | .hbm, ⟨65, _⟩ => ⟨S2048x50x16x1, .i32⟩
  | .hbm, ⟨66, _⟩ => ⟨S32, .i32⟩
  | .hbm, ⟨67, _⟩ => ⟨S1x1x1x32, .i32⟩
  | .hbm, ⟨68, _⟩ => ⟨S2048x50x16x32, .i32⟩
  | .hbm, ⟨69, _⟩ => ⟨S2048x50x16x32, .i32⟩
  | .hbm, ⟨70, _⟩ => ⟨S2048x50x16x32, .i32⟩
  | .hbm, ⟨71, _⟩ => ⟨S_, .i32⟩
  | .hbm, ⟨72, _⟩ => ⟨S2048x50x16x32, .i32⟩
  | .hbm, ⟨73, _⟩ => ⟨S2048x50x16x32, .i1⟩
  | .hbm, ⟨74, _⟩ => ⟨S_, .i32⟩
  | .hbm, ⟨75, _⟩ => ⟨S2048x50x16x32, .i32⟩
  | .hbm, ⟨76, _⟩ => ⟨S2048x50x16x32, .i32⟩
  | .hbm, ⟨77, _⟩ => ⟨S2048x50x16x32, .i32⟩
  | .hbm, ⟨78, _⟩ => ⟨S2048x50x16x32x1, .i32⟩
  | .hbm, ⟨79, _⟩ => ⟨S2048x50x16x32, .f32⟩
  | .hbm, ⟨80, _⟩ => ⟨S2048x50x512, .f32⟩
  | .hbm, ⟨81, _⟩ => ⟨S_, .i32⟩
  | .hbm, ⟨82, _⟩ => ⟨S2048x50, .i32⟩
  | .hbm, ⟨83, _⟩ => ⟨S2048x50, .i1⟩
  | .hbm, ⟨84, _⟩ => ⟨S2048x50x1, .i1⟩
  | .hbm, ⟨85, _⟩ => ⟨S_, .f32⟩
  | .hbm, ⟨86, _⟩ => ⟨S_, .f32⟩
  | .hbm, ⟨87, _⟩ => ⟨S2048x50x512, .i1⟩
  | .hbm, ⟨88, _⟩ => ⟨S2048x50x512, .f32⟩
  | .hbm, ⟨89, _⟩ => ⟨S2048x50x512, .f32⟩
  | .hbm, ⟨90, _⟩ => ⟨S2048x50x1, .f32⟩
  | .hbm, ⟨91, _⟩ => ⟨S2048x50x512, .f32⟩
  | .hbm, ⟨92, _⟩ => ⟨S2048x50x512, .f32⟩
  | .hbm, ⟨93, _⟩ => ⟨S_, .f32⟩
  | .hbm, ⟨94, _⟩ => ⟨S2048x512, .f32⟩
  | .hbm, ⟨95, _⟩ => ⟨S_, .i32⟩
  | .hbm, ⟨96, _⟩ => ⟨S512x2048, .i32⟩
  | .hbm, ⟨97, _⟩ => ⟨S512x2048, .i1⟩
  | .hbm, ⟨98, _⟩ => ⟨S_, .i32⟩
  | .hbm, ⟨99, _⟩ => ⟨S512x2048, .i32⟩
  | .hbm, ⟨100, _⟩ => ⟨S512x2048, .i32⟩
  | .hbm, ⟨101, _⟩ => ⟨S512x2048, .i32⟩
  | .hbm, ⟨102, _⟩ => ⟨S512x2048x1, .i32⟩
  | .hbm, ⟨103, _⟩ => ⟨S512x2048, .f32⟩
  | .hbm, ⟨104, _⟩ => ⟨S2048x2048, .f32⟩
  | .hbm, ⟨105, _⟩ => ⟨S_, .i32⟩
  | .hbm, ⟨106, _⟩ => ⟨S2048x2048, .i32⟩
  | .hbm, ⟨107, _⟩ => ⟨S2048x2048, .i1⟩
  | .hbm, ⟨108, _⟩ => ⟨S_, .i32⟩
  | .hbm, ⟨109, _⟩ => ⟨S2048x2048, .i32⟩
  | .hbm, ⟨110, _⟩ => ⟨S2048x2048, .i32⟩
  | .hbm, ⟨111, _⟩ => ⟨S2048x2048, .i32⟩
  | .hbm, ⟨112, _⟩ => ⟨S2048x2048x1, .i32⟩
  | .hbm, ⟨113, _⟩ => ⟨S2048x2048, .f32⟩
  | .hbm, ⟨114, _⟩ => ⟨S2048x2048, .f32⟩
  | .hbm, ⟨115, _⟩ => ⟨S_, .i32⟩
  | .hbm, ⟨116, _⟩ => ⟨S2048x1000, .i32⟩
  | .hbm, ⟨117, _⟩ => ⟨S2048x1000, .i1⟩
  | .hbm, ⟨118, _⟩ => ⟨S_, .i32⟩
  | .hbm, ⟨119, _⟩ => ⟨S2048x1000, .i32⟩
  | .hbm, ⟨120, _⟩ => ⟨S2048x1000, .i32⟩
  | .hbm, ⟨121, _⟩ => ⟨S2048x1000, .i32⟩
  | .hbm, ⟨122, _⟩ => ⟨S2048x1000x1, .i32⟩
  | .hbm, ⟨123, _⟩ => ⟨S2048x1000, .f32⟩
  | .hbm, ⟨124, _⟩ => ⟨S2048x1000, .f32⟩
  | _, _ => ⟨S2048x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v12 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_c_4 : Ref sig .tc := ⟨.hbm, 71, rfl⟩
abbrev main_v20 : Ref sig .tc := ⟨.hbm, 72, rfl⟩
abbrev main_v21 : Ref sig .tc := ⟨.hbm, 73, rfl⟩
abbrev main_c_5 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_c_6 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_7 : Ref sig .tc := ⟨.hbm, 93, rfl⟩
abbrev main_v35 : Ref sig .tc := ⟨.hbm, 94, rfl⟩
abbrev main_c_8 : Ref sig .tc := ⟨.hbm, 95, rfl⟩
abbrev main_v36 : Ref sig .tc := ⟨.hbm, 96, rfl⟩
abbrev main_v37 : Ref sig .tc := ⟨.hbm, 97, rfl⟩
abbrev main_c_9 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_c_10 : Ref sig .tc := ⟨.hbm, 105, rfl⟩
abbrev main_v44 : Ref sig .tc := ⟨.hbm, 106, rfl⟩
abbrev main_v45 : Ref sig .tc := ⟨.hbm, 107, rfl⟩
abbrev main_c_11 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_12 : Ref sig .tc := ⟨.hbm, 115, rfl⟩
abbrev main_v52 : Ref sig .tc := ⟨.hbm, 116, rfl⟩
abbrev main_v53 : Ref sig .tc := ⟨.hbm, 117, rfl⟩
abbrev main_c_13 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩

abbrev nD : Nat := 1
abbrev τ : Topo := Topo.v7x

variable {F : FTy → Type} [FloatOps F]

class Facts₀ : Prop where
  bcast_S2048x50_S2048x50x1_0_1 : S2048x50.BroadcastsInDim S2048x50x1 (![0, 1] : Fin 2 → Fin S2048x50x1.rank)
  bcast_S_S2048x50x1 : S_.BroadcastsInDim S2048x50x1 (![] : Fin 0 → Fin S2048x50x1.rank)
  bcast_S_S16 : S_.BroadcastsInDim S16 (![] : Fin 0 → Fin S16.rank)
  bcast_S16_S1x1x16_2 : S16.BroadcastsInDim S1x1x16 (![2] : Fin 1 → Fin S1x1x16.rank)
  bcast_S2048x50x1_S2048x50x16_0_1_2 : S2048x50x1.BroadcastsInDim S2048x50x16 (![0, 1, 2] : Fin 3 → Fin S2048x50x16.rank)
  bcast_S1x1x16_S2048x50x16_0_1_2 : S1x1x16.BroadcastsInDim S2048x50x16 (![0, 1, 2] : Fin 3 → Fin S2048x50x16.rank)
  bcast_S_S2048x50x16 : S_.BroadcastsInDim S2048x50x16 (![] : Fin 0 → Fin S2048x50x16.rank)
  bcast_S2048x50x16_S2048x50x16x1_0_1_2 : S2048x50x16.BroadcastsInDim S2048x50x16x1 (![0, 1, 2] : Fin 3 → Fin S2048x50x16x1.rank)
  bcast_S32_S1x1x1x32_3 : S32.BroadcastsInDim S1x1x1x32 (![3] : Fin 1 → Fin S1x1x1x32.rank)
  bcast_S2048x50x16x1_S2048x50x16x32_0_1_2_3 : S2048x50x16x1.BroadcastsInDim S2048x50x16x32 (![0, 1, 2, 3] : Fin 4 → Fin S2048x50x16x32.rank)
  bcast_S1x1x1x32_S2048x50x16x32_0_1_2_3 : S1x1x1x32.BroadcastsInDim S2048x50x16x32 (![0, 1, 2, 3] : Fin 4 → Fin S2048x50x16x32.rank)
  bcast_S_S2048x50x16x32 : S_.BroadcastsInDim S2048x50x16x32 (![] : Fin 0 → Fin S2048x50x16x32.rank)
  bcast_S2048x50x16x32_S2048x50x16x32x1_0_1_2_3 : S2048x50x16x32.BroadcastsInDim S2048x50x16x32x1 (![0, 1, 2, 3] : Fin 4 → Fin S2048x50x16x32x1.rank)
  shapeCasts_S2048x50x16x32_S2048x50x512 : S2048x50x16x32.ShapeCasts S2048x50x512
  bcast_S_S2048x50 : S_.BroadcastsInDim S2048x50 (![] : Fin 0 → Fin S2048x50.rank)
  bcast_S2048x50x1_S2048x50x512_0_1_2 : S2048x50x1.BroadcastsInDim S2048x50x512 (![0, 1, 2] : Fin 3 → Fin S2048x50x512.rank)
  bcast_S_S2048x50x512 : S_.BroadcastsInDim S2048x50x512 (![] : Fin 0 → Fin S2048x50x512.rank)
  reducesTo_S2048x50x512_S2048x512_d1 : S2048x50x512.ReducesTo [1] S2048x512
  h_S_ : 0 < S_.numel
  bcast_S_S512x2048 : S_.BroadcastsInDim S512x2048 (![] : Fin 0 → Fin S512x2048.rank)
  bcast_S512x2048_S512x2048x1_0_1 : S512x2048.BroadcastsInDim S512x2048x1 (![0, 1] : Fin 2 → Fin S512x2048x1.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S_S2048x1000 : S_.BroadcastsInDim S2048x1000 (![] : Fin 0 → Fin S2048x1000.rank)
  bcast_S2048x1000_S2048x1000x1_0_1 : S2048x1000.BroadcastsInDim S2048x1000x1 (![0, 1] : Fin 2 → Fin S2048x1000x1.rank)
  gather_S2000000_S2048x50x16x32x1_S2048x50x16x32_n_0_n_n_0_4_1_wf : GatherDims.WF S2000000 S2048x50x16x32x1 S2048x50x16x32 [] [0] [] [0] [] 4 ![1]
  gather_S2000000_S512x2048x1_S512x2048_n_0_n_n_0_2_1_wf : GatherDims.WF S2000000 S512x2048x1 S512x2048 [] [0] [] [0] [] 2 ![1]
  dot_S2048x512_S512x2048_S2048x2048_1_0_0_1_n_n_wf : DotDims.WF S2048x512 S512x2048 S2048x2048 [1] [0] [0] [1] [] []
  gather_S2000000_S2048x2048x1_S2048x2048_n_0_n_n_0_2_1_wf : GatherDims.WF S2000000 S2048x2048x1 S2048x2048 [] [0] [] [0] [] 2 ![1]
  dot_S2048x2048_S2048x2048_S2048x2048_1_0_0_1_n_n_wf : DotDims.WF S2048x2048 S2048x2048 S2048x2048 [1] [0] [0] [1] [] []
  gather_S2000000_S2048x1000x1_S2048x1000_n_0_n_n_0_2_1_wf : GatherDims.WF S2000000 S2048x1000x1 S2048x1000 [] [0] [] [0] [] 2 ![1]
  dot_S2048x2048_S2048x1000_S2048x1000_1_0_0_1_n_n_wf : DotDims.WF S2048x2048 S2048x1000 S2048x1000 [1] [0] [0] [1] [] []

variable [Facts₀]

def gather_S2000000_S2048x50x16x32x1_S2048x50x16x32_n_0_n_n_0_4_1 : GatherDims S2000000 S2048x50x16x32x1 S2048x50x16x32 where
  offsetDims := []
  collapsedSliceDims := [0]
  operandBatchingDims := []
  startIndicesBatchingDims := []
  startIndexMap := [0]
  indexVectorDim := 4
  sliceSizes := ![1]
  wf := gather_S2000000_S2048x50x16x32x1_S2048x50x16x32_n_0_n_n_0_4_1_wf
def gather_S2000000_S512x2048x1_S512x2048_n_0_n_n_0_2_1 : GatherDims S2000000 S512x2048x1 S512x2048 where
  offsetDims := []
  collapsedSliceDims := [0]
  operandBatchingDims := []
  startIndicesBatchingDims := []
  startIndexMap := [0]
  indexVectorDim := 2
  sliceSizes := ![1]
  wf := gather_S2000000_S512x2048x1_S512x2048_n_0_n_n_0_2_1_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def gather_S2000000_S2048x2048x1_S2048x2048_n_0_n_n_0_2_1 : GatherDims S2000000 S2048x2048x1 S2048x2048 where
  offsetDims := []
  collapsedSliceDims := [0]
  operandBatchingDims := []
  startIndicesBatchingDims := []
  startIndexMap := [0]
  indexVectorDim := 2
  sliceSizes := ![1]
  wf := gather_S2000000_S2048x2048x1_S2048x2048_n_0_n_n_0_2_1_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def gather_S2000000_S2048x1000x1_S2048x1000_n_0_n_n_0_2_1 : GatherDims S2000000 S2048x1000x1 S2048x1000 where
  offsetDims := []
  collapsedSliceDims := [0]
  operandBatchingDims := []
  startIndicesBatchingDims := []
  startIndexMap := [0]
  indexVectorDim := 2
  sliceSizes := ![1]
  wf := gather_S2000000_S2048x1000x1_S2048x1000_n_0_n_n_0_2_1_wf
def dot_S2048x2048_S2048x1000_S2048x1000_1_0_0_1_n_n : DotDims S2048x2048 S2048x1000 S2048x1000 where
  lhsContracting := [1]
  rhsContracting := [0]
  lhsNonContracting := [0]
  rhsNonContracting := [1]
  lhsBatch := []
  rhsBatch := []
  wf := dot_S2048x2048_S2048x1000_S2048x1000_1_0_0_1_n_n_wf

class Facts : Prop extends Facts₀ where

variable [Facts]
-- ==== Proof.KRun.lean ====
/-
  THE IDEALIZED KERNEL PROGRAM'S RUN, WITH ITS RESULT NAMED.

  The program is a chain of eleven segments: stretches of host operations and the two pipelined regions.  Every weakly
  fair execution goes through them in order; between two segments the TensorCore's unscoped buffers hold the contents
  the fold of the segments so far gives them (`W0`, …, `W11`).  The final state therefore has every unscoped buffer at
  the last boundary's contents: the arguments, which nothing writes, as launched, and the result buffer at whatever the
  fold leaves there, `W11` at the result — which the value modules read back segment by segment.
-/
import proofs.«166119_j5952824673078_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v57) = W11 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v57 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.KRun

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«166119_j5952824673078_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«166119_j5952824673078_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«166119_j5952824673078_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«166119_j5952824673078_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.Spec.lean ====
/-
  THE NETWORK, AS ONE FUNCTION OF ITS ARRAYS, at the ideal values.

  A batch of `B` histories, each of `L` embedded rows of width `D`, is pooled with one weight per row:
  `h (b, d) = ∑ l, e (b, l, d) · w (b, l)`.  The pooled rows then pass through three linear layers without bias or
  activation, `((h · W₁) · W₂) · W₃`, each product `∑ k, A (p, k) · W (k, c)` with the sum grouped in this order.
  Everything is generic in the extents; nothing here mentions a program.
-/
import proofs.«166119_j5952824673078_2_alg».proof.Proof.LibProdRows

noncomputable section

open scoped BigOperators

namespace Cert.Spec

open Idealize.ShloMosaic Idealize.ShloMosaic.ValueIdx
open Cert.KernelIdeal.RegionValue (prodArr prodArr_apply)

/-- Weighted pooling: entry `(b, d)` is the sum over the history of the embedded row's entry times the row's weight. -/
def poolArr {B L D : ℕ} (e : (⟨3, ![B, L, D]⟩ : Shape).Idx → EReal) (w : (⟨2, ![B, L]⟩ : Shape).Idx → EReal) :
    (⟨2, ![B, D]⟩ : Shape).Idx → EReal :=
  fun i => ∑ l : Fin L, e (ix3 (i 0) l (i 1)) * w (ix2 (i 0) l)

theorem poolArr_apply {B L D : ℕ} (e : (⟨3, ![B, L, D]⟩ : Shape).Idx → EReal) (w : (⟨2, ![B, L]⟩ : Shape).Idx → EReal)
    (b : Fin B) (d : Fin D) : poolArr e w (ix2 b d) = ∑ l : Fin L, e (ix3 b l d) * w (ix2 b l) := rfl

/-- Three linear layers in a row, grouped from the left. -/
def mlpArr {B K N₁ N₂ N₃ : ℕ} (h : (⟨2, ![B, K]⟩ : Shape).Idx → EReal) (w₁ : (⟨2, ![K, N₁]⟩ : Shape).Idx → EReal)
    (w₂ : (⟨2, ![N₁, N₂]⟩ : Shape).Idx → EReal) (w₃ : (⟨2, ![N₂, N₃]⟩ : Shape).Idx → EReal) :
    (⟨2, ![B, N₃]⟩ : Shape).Idx → EReal :=
  prodArr (prodArr (prodArr h w₁) w₂) w₃

/-- The whole network: pooling, then the three layers. -/
def netArr {B L D N₁ N₂ N₃ : ℕ} (e : (⟨3, ![B, L, D]⟩ : Shape).Idx → EReal) (w : (⟨2, ![B, L]⟩ : Shape).Idx → EReal)
    (w₁ : (⟨2, ![D, N₁]⟩ : Shape).Idx → EReal) (w₂ : (⟨2, ![N₁, N₂]⟩ : Shape).Idx → EReal)
    (w₃ : (⟨2, ![N₂, N₃]⟩ : Shape).Idx → EReal) : (⟨2, ![B, N₃]⟩ : Shape).Idx → EReal :=
  mlpArr (poolArr e w) w₁ w₂ w₃

end Cert.Spec

end
-- ==== Proof.LibFormats.lean ====
/-
  A CHANGE OF FLOAT FORMAT IS THE IDENTITY on arrays of extended reals: rounding to a narrower format and widening back are
  both the identity function, so an array converted either way is the array itself.
-/
import Idealize.ShloMosaic.PureOps.Ideal

noncomputable section

namespace Cert.Formats

open Idealize.ShloMosaic

/-- Narrowing an array of extended reals leaves it as it was. -/
theorem truncf_id {s : Shape} {φ : FTy} (ψ : FTy) (v : FVec Ideal s φ) (h : ψ.bits < φ.bits) :
    (truncf ψ v h : s.Idx → EReal) = v := rfl

/-- Widening an array of extended reals leaves it as it was. -/
theorem extf_id {s : Shape} {φ : FTy} (ψ : FTy) (v : FVec Ideal s φ) (h : φ.bits < ψ.bits) :
    (extf ψ v h : s.Idx → EReal) = v := rfl

end Cert.Formats

end
-- ==== Proof.MlpBody.lean ====
/-
  THE THREE-LAYER KERNEL'S BLOCK, at the ideal values.

  At a grid point the kernel holds a block `x₀` of 512 pooled rows and the three weight arrays `x₁`, `x₂`, `x₃` whole.
  It multiplies the block by the first array into a zero accumulator, rounds, multiplies by the second, rounds,
  multiplies by the third, and stores the result as the whole output block.  At the ideal values rounding is the
  identity and a product into a zero accumulator is the plain product `∑ k, a (p, k) · w (k, c)`, so the stored block is
  `((x₀ · x₁) · x₂) · x₃`, the three layers of the specification applied to the block.
-/
import proofs.«166119_j5952824673078_2_alg».proof.Proof.Gen.KernelIdeal.Frame
import proofs.«166119_j5952824673078_2_alg».proof.Proof.Spec
import proofs.«166119_j5952824673078_2_alg».proof.Proof.LibFormats
import Idealize.ShloMosaic.Lib.Pipeline.Value

noncomputable section

namespace Cert.KernelIdeal.MlpValue

open Idealize.ShloMosaic Idealize.ShloMosaic.ValueIdx Cert.KernelIdeal Cert.KernelIdeal.Gen
open Cert.KernelIdeal.RegionValue (prodArr)

/-- The offsets of a whole-buffer access are the zero function. -/
theorem hz : (![0, 0] : Fin 2 → Nat) = fun _ => 0 := funext fun a => by fin_cases a <;> rfl

/-- The three printed contraction records are the plain matrix-product records of their extents. -/
theorem dot1_plain : dot_S512x512_S512x2048_S512x2048_1_0_0_1_n_n = DotDims.plain 512 512 2048 := rfl
theorem dot2_plain : dot_S512x2048_S2048x2048_S512x2048_1_0_0_1_n_n = DotDims.plain 512 2048 2048 := rfl
theorem dot3_plain : dot_S512x2048_S2048x1024_S512x1024_1_0_0_1_n_n = DotDims.plain 512 2048 1024 := rfl

/-- The body's one payload is the three layers applied to the loaded block and the loaded weights. -/
theorem pay_eq (v0 : Vec Ideal S512x512 .bf16) (v2 : Vec Ideal S512x2048 .bf16) (v6 : Vec Ideal S2048x2048 .bf16)
    (v10 : Vec Ideal S2048x1024 .bf16) :
    (k1_pay1 (F := Ideal) v0 v2 v6 v10 : S512x1024.Idx → EReal) = Cert.Spec.mlpArr v0 v2 v6 v10 := by
  unfold k1_pay1
  simp only [shapeCast_self]
  rw [dot1_plain, dot2_plain, dot3_plain]
  unfold Cert.Spec.mlpArr
  rw [Cert.ProdRows.kprod none v0 v2]
  rw [Cert.Formats.truncf_id, Cert.ProdRows.kprod, Cert.Formats.truncf_id, Cert.ProdRows.kprod]

/-- What the body leaves in the output block: the three layers of the input block and the weight arrays. -/
theorem out_eq (x0 : Vec Ideal S512x512 .bf16) (x1 : Vec Ideal S512x2048 .bf16) (x2 : Vec Ideal S2048x2048 .bf16)
    (x3 : Vec Ideal S2048x1024 .bf16) :
    (out1_4 (F := Ideal) x0 x1 x2 x3 : S512x1024.Idx → EReal) = Cert.Spec.mlpArr x0 x1 x2 x3 := by
  unfold out1_4
  rw [View.canon_unit_zero hz]
  simp only [View.ld_unit_zero (S := S512x512) hz, View.ld_unit_zero (S := S512x2048) hz,
    View.ld_unit_zero (S := S2048x2048) hz, View.ld_unit_zero (S := S2048x1024) hz]
  exact pay_eq x0 x1 x2 x3

end Cert.KernelIdeal.MlpValue

end
-- ==== Proof.MlpArray.lean ====
/-
  THE THREE-LAYER REGION'S OUTPUT ARRAY, at the ideal values.

  The region has four grid points.  Point `t` reads rows `512·t … 512·t + 511` of the pooled array and the three weight
  arrays whole, and writes back rows `512·t … 512·t + 511` of the output.  Row `p` of a matrix product depends on row `p`
  of its left operand only, so what point `t` writes is that band of rows of the three layers applied to the WHOLE
  pooled array; the four bands tile the 2048 rows (row `r` lies in the band of point `r / 512`), so after the region the
  output array is the three layers of the arrays the region found.
-/
import proofs.«166119_j5952824673078_2_alg».proof.Proof.MlpBody

set_option maxRecDepth 16384

noncomputable section

namespace Cert.KernelIdeal.MlpValue

open Idealize.ShloMosaic Idealize.ShloMosaic.TcCoe Idealize.ShloMosaic.ValueIdx Idealize.ShloMosaic.Pipeline Cert.KernelIdeal Cert.KernelIdeal.Gen
open Cert.KernelIdeal.RegionValue (prodArr)

variable (V : (c : Dev nD) → (b : Ref sig .tc) → Buf (Elt Ideal) ((c : Thread nD τ).loc b))

/-- The printed index maps over the four points: the pooled rows and the output move together, band `t` at point `t`;
    the weight arrays stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_four (t : Fin cfg1.N) : t.val < 4 := N_1 ▸ t.isLt

/-- Row `r` of the 2048 lies in one of the four bands of 512 rows. -/
theorem band_lt (r : ℕ) (h : r < 2048) : r / 512 < cfg1.N := by
  show r / 512 < grid1.N
  rw [N_1]; omega

/-- The three layers of the arrays the region finds. -/
def layers (c : Dev nD) : S2048x1024.Idx → EReal :=
  Cert.Spec.mlpArr (V c main_v33 : S2048x512.Idx → EReal) (V c main_v40 : S512x2048.Idx → EReal)
    (V c main_v47 : S2048x2048.Idx → EReal) (V c main_v55 : S2048x1024.Idx → EReal)

/-- The first weight array's one block is the array. -/
theorem blk_w1 (c : Dev nD) (t : Fin cfg1.N) : (iblk1 (F := Ideal) V c 1 t : S512x2048.Idx → EReal) = V c main_v40 := by
  obtain ⟨-, -, e0, e1, -⟩ := idx_facts t
  funext j
  show V c main_v40 (((cfg1.win 1).blk t).view.emb j) = V c main_v40 j
  refine congrArg (V c main_v40) ?_
  funext a; apply Fin.ext
  match a with
  | ⟨0, _⟩ => show win1_1.index t (0 : Fin 2) * 512 + 1 * (j 0).val = (j 0).val; omega
  | ⟨1, _⟩ => show win1_1.index t (1 : Fin 2) * 2048 + 1 * (j 1).val = (j 1).val; omega

/-- The second weight array's one block is the array. -/
theorem blk_w2 (c : Dev nD) (t : Fin cfg1.N) : (iblk1 (F := Ideal) V c 2 t : S2048x2048.Idx → EReal) = V c main_v47 := by
  obtain ⟨-, -, -, -, e0, e1, -⟩ := idx_facts t
  funext j
  show V c main_v47 (((cfg1.win 2).blk t).view.emb j) = V c main_v47 j
  refine congrArg (V c main_v47) ?_
  funext a; apply Fin.ext
  match a with
  | ⟨0, _⟩ => show win1_2.index t (0 : Fin 2) * 2048 + 1 * (j 0).val = (j 0).val; omega
  | ⟨1, _⟩ => show win1_2.index t (1 : Fin 2) * 2048 + 1 * (j 1).val = (j 1).val; omega

/-- The third weight array's one block is the array. -/
theorem blk_w3 (c : Dev nD) (t : Fin cfg1.N) : (iblk1 (F := Ideal) V c 3 t : S2048x1024.Idx → EReal) = V c main_v55 := by
  obtain ⟨-, -, -, -, -, -, e0, e1, -⟩ := idx_facts t
  funext j
  show V c main_v55 (((cfg1.win 3).blk t).view.emb j) = V c main_v55 j
  refine congrArg (V c main_v55) ?_
  funext a; apply Fin.ext
  match a with
  | ⟨0, _⟩ => show win1_3.index t (0 : Fin 2) * 2048 + 1 * (j 0).val = (j 0).val; omega
  | ⟨1, _⟩ => show win1_3.index t (1 : Fin 2) * 1024 + 1 * (j 1).val = (j 1).val; omega

/-- Row `p` of the pooled block at point `t` is row `512·t + p` of the pooled array. -/
theorem blk_rows (c : Dev nD) (t : Fin cfg1.N) (j : S512x512.Idx) (i : S2048x512.Idx)
    (h0 : (i 0).val = 512 * t.val + (j 0).val) (h1 : (i 1).val = (j 1).val) :
    (iblk1 (F := Ideal) V c 0 t j : EReal) = V c main_v33 i := by
  obtain ⟨e0, e1, -⟩ := idx_facts t
  show V c main_v33 (((cfg1.win 0).blk t).view.emb j) = V c main_v33 i
  refine congrArg (V c main_v33) ?_
  funext a; apply Fin.ext
  match a with
  | ⟨0, _⟩ => show win1_0.index t (0 : Fin 2) * 512 + 1 * (j 0).val = (i 0).val; omega
  | ⟨1, _⟩ => show win1_0.index t (1 : Fin 2) * 512 + 1 * (j 1).val = (i 1).val; omega

/-- What point `t` writes back is band `t` of the three layers of the whole arrays. -/
theorem flushed_eq (c : Dev nD) (t : Fin cfg1.N) :
    (dat1 (F := Ideal) V c).flushed 4 t = ((cfg1.win 4).blk t).view.read (Elt Ideal) (layers V c) := by
  show (cfg1.win 4).cut (grid1.coords t) ((dat1 V c).after 4 t) = _
  rw [after1_4]
  have ht := lt_four t
  obtain ⟨-, -, -, -, -, -, -, -, e0, e1⟩ := idx_facts t
  funext j
  show (out1_4 (iblk1 V c 0 t) (iblk1 V c 1 t) (iblk1 V c 2 t) (iblk1 V c 3 t) j : EReal)
    = layers V c (((cfg1.win 4).blk t).view.emb j)
  rw [out_eq, blk_w1, blk_w2, blk_w3]
  obtain ⟨p, q, rfl⟩ : ∃ (p : Fin 512) (q : Fin 1024), j = ix2 p q := ⟨j 0, j 1, eq_ix2 j⟩
  have hemb : ((cfg1.win 4).blk t).view.emb (ix2 p q)
      = ix2 (⟨512 * t.val + p.val, by have := p.isLt; omega⟩ : Fin 2048) q := by
    funext a; apply Fin.ext
    match a with
    | ⟨0, _⟩ => show win1_4.index t (0 : Fin 2) * 512 + 1 * p.val = 512 * t.val + p.val; omega
    | ⟨1, _⟩ => show win1_4.index t (1 : Fin 2) * 1024 + 1 * q.val = q.val; omega
  rw [hemb]
  unfold layers Cert.Spec.mlpArr
  refine Cert.ProdRows.prodArr_rows _ _ _ p _ (fun k2 => ?_) q
  refine Cert.ProdRows.prodArr_rows _ _ _ p _ (fun k1 => ?_) k2
  refine Cert.ProdRows.prodArr_rows _ _ _ p _ (fun k0 => ?_) k1
  exact blk_rows V c t (ix2 p k0) (ix2 _ k0) rfl rfl

/-- An index of the output array is in point `t`'s block iff each coordinate is in the block's range on its axis. -/
theorem mem_blk (t : Fin cfg1.N) (i : S2048x1024.Idx) :
    i ∈ ((cfg1.win 4).blk t).view.set ↔ ∀ a : Fin 2, win1_4.index t a * S512x1024.size a ≤ (i a).val
      ∧ (i a).val < win1_4.index t a * S512x1024.size a + S512x1024.size a := by
  show i ∈ ((View.whole main_v56).slice (win1_4.rect t)).set ↔ _
  rw [View.set_slice_whole, Rect.mem_set_unit]
  exact Iff.rfl

/-- Every index of the output array is in the block of the point its row's band names. -/
theorem cover (i : S2048x1024.Idx) :
    ∃ t : Fin cfg1.N, (cfg1.win 4).flush t = true ∧ i ∈ ((cfg1.win 4).blk t).view.set := by
  have hi0 : (i 0).val < 2048 := (i 0).isLt
  have hi1 : (i 1).val < 1024 := (i 1).isLt
  refine ⟨⟨(i 0).val / 512, band_lt _ hi0⟩, flush1_4 _, ?_⟩
  obtain ⟨-, -, -, -, -, -, -, -, e0, e1⟩ := idx_facts ⟨(i 0).val / 512, band_lt _ hi0⟩
  have e0' : win1_4.index ⟨(i 0).val / 512, band_lt _ hi0⟩ (0 : Fin 2) = (i 0).val / 512 := e0
  rw [mem_blk]
  intro a
  match a with
  | ⟨0, _⟩ =>
    show win1_4.index ⟨(i 0).val / 512, _⟩ (0 : Fin 2) * 512 ≤ (i 0).val
      ∧ (i 0).val < win1_4.index ⟨(i 0).val / 512, _⟩ (0 : Fin 2) * 512 + 512
    omega
  | ⟨1, _⟩ =>
    show win1_4.index ⟨(i 0).val / 512, _⟩ (1 : Fin 2) * 1024 ≤ (i 1).val
      ∧ (i 1).val < win1_4.index ⟨(i 0).val / 512, _⟩ (1 : Fin 2) * 1024 + 1024
    omega

/-- THE OUTPUT ARRAY after the region: the three layers of the arrays the region found. -/
theorem final1 (c : Dev nD) : ((dat1 (F := Ideal) V c).arrAt 4 cfg1.N : S2048x1024.Idx → EReal) = layers V c :=
  (dat1 V c).arrAt_eq_of_cover 4 (layers V c) (fun t _ => flushed_eq V c t) cover

end Cert.KernelIdeal.MlpValue

end
-- ==== Proof.LibBatchRows.lean ====
/-
  LAYOUT OPERATIONS ON A BATCH OF ROW TABLES, read at an index.

  A batch of `A` tables of `B` rows is kept either as a three-axis array `[A, B, C]` or flattened to `[A·B, C]`, row `n` of
  table `p` at flat row `p·B + n` (`row`).  Read here at an index given by its coordinates: the casts between the two forms
  (also with a trailing unit axis in place of `C`), the broadcasts that repeat a per-table row, a shared row or a per-row
  number across a table, a sum over the rows of each table or over the columns of each flat row, and two slices of a table
  (its first row's leading columns; one column of every row).  All extents are parameters; the flat row count `R` comes with
  the equation `R = A * B`.  No algebra of the extended reals is used.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BatchRows

open Idealize.ShloMosaic Idealize.ShloMosaic.ValueIdx

variable {α : Type}

/-- Row `n` of table `p` in the flattened array. -/
def row {A B R : ℕ} (hR : R = A * B) (p : Fin A) (n : Fin B) : Fin R :=
  ⟨p.val * B + n.val, by
    subst hR
    exact Nat.lt_of_lt_of_le (Nat.add_lt_add_left n.isLt _) (by rw [← Nat.succ_mul]; exact Nat.mul_le_mul_right _ p.isLt)⟩

theorem row_val {A B R : ℕ} (hR : R = A * B) (p : Fin A) (n : Fin B) : (row hR p n).val = p.val * B + n.val := rfl

/-- Every flat row is some table's row. -/
theorem exists_row {A B R : ℕ} (hR : R = A * B) (hB : 0 < B) (r : Fin R) : ∃ (p : Fin A) (n : Fin B), r = row hR p n := by
  subst hR
  have hr : r.val < B * A := lt_of_lt_of_eq r.isLt (Nat.mul_comm A B)
  refine ⟨⟨r.val / B, Nat.div_lt_of_lt_mul hr⟩, ⟨r.val % B, Nat.mod_lt _ hB⟩, Fin.ext ?_⟩
  show r.val = r.val / B * B + r.val % B
  exact (Nat.div_add_mod' r.val B).symm

/-! ## Casts between the two forms -/

theorem cast_abc_rc {A B C R : ℕ} (hR : R = A * B) (x : (⟨3, ![A, B, C]⟩ : Shape).Idx → α)
    (h : (⟨3, ![A, B, C]⟩ : Shape).ShapeCasts ⟨2, ![R, C]⟩) (p : Fin A) (n : Fin B) (c : Fin C) :
    shapeCast ⟨2, ![R, C]⟩ x h (ix2 (row hR p n) c) = x (ix3 p n c) :=
  shapeCast_apply x h _ _ (by rw [Shape.rowMajor_val_three, Shape.rowMajor_val_two]; rfl)

theorem cast_rc_abc {A B C R : ℕ} (hR : R = A * B) (x : (⟨2, ![R, C]⟩ : Shape).Idx → α)
    (h : (⟨2, ![R, C]⟩ : Shape).ShapeCasts ⟨3, ![A, B, C]⟩) (p : Fin A) (n : Fin B) (c : Fin C) :
    shapeCast ⟨3, ![A, B, C]⟩ x h (ix3 p n c) = x (ix2 (row hR p n) c) :=
  shapeCast_apply x h _ _ (by rw [Shape.rowMajor_val_three, Shape.rowMajor_val_two]; rfl)

theorem cast_ab_r1 {A B R : ℕ} (hR : R = A * B) (x : (⟨2, ![A, B]⟩ : Shape).Idx → α)
    (h : (⟨2, ![A, B]⟩ : Shape).ShapeCasts ⟨2, ![R, 1]⟩) (p : Fin A) (n : Fin B) (u : Fin 1) :
    shapeCast ⟨2, ![R, 1]⟩ x h (ix2 (row hR p n) u) = x (ix2 p n) :=
  shapeCast_apply x h _ _ (by
    have hu : u.val = 0 := by omega
    rw [Shape.rowMajor_val_two, Shape.rowMajor_val_two]
    show p.val * B + n.val = (p.val * B + n.val) * 1 + u.val
    omega)

theorem cast_r1_ab {A B R : ℕ} (hR : R = A * B) (x : (⟨2, ![R, 1]⟩ : Shape).Idx → α)
    (h : (⟨2, ![R, 1]⟩ : Shape).ShapeCasts ⟨2, ![A, B]⟩) (p : Fin A) (n : Fin B) :
    shapeCast ⟨2, ![A, B]⟩ x h (ix2 p n) = x (ix2 (row hR p n) (0 : Fin 1)) :=
  shapeCast_apply x h _ _ (by
    rw [Shape.rowMajor_val_two, Shape.rowMajor_val_two]
    show (p.val * B + n.val) * 1 + 0 = p.val * B + n.val
    omega)

/-! ## Repeating a row or a number across a table -/

/-- A per-table row `[A, C]` cast to `[A, 1, C]` and broadcast over the table's rows. -/
theorem bcast_ac_abc {A B C : ℕ} (x : (⟨2, ![A, C]⟩ : Shape).Idx → α)
    (hc : (⟨2, ![A, C]⟩ : Shape).ShapeCasts ⟨3, ![A, 1, C]⟩) (hb : (⟨3, ![A, 1, C]⟩ : Shape).Broadcasts ⟨3, ![A, B, C]⟩)
    (p : Fin A) (n : Fin B) (c : Fin C) :
    broadcastTo ⟨3, ![A, B, C]⟩ (shapeCast ⟨3, ![A, 1, C]⟩ x hc) hb (ix3 p n c) = x (ix2 p c) := by
  have e1 : broadcastTo ⟨3, ![A, B, C]⟩ (shapeCast ⟨3, ![A, 1, C]⟩ x hc) hb (ix3 p n c)
      = shapeCast ⟨3, ![A, 1, C]⟩ x hc (ix3 p (0 : Fin 1) c) :=
    broadcastTo_apply _ hb (ix3 p n c) (ix3 p (0 : Fin 1) c) fun ax => by
      match ax with
      | ⟨0, _⟩ =>
        show p.val = if A = 1 then 0 else p.val
        split
        · have := p.isLt; omega
        · rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show p.val * C + c.val = (p.val * 1 + 0) * C + c.val
    rw [Nat.mul_one, Nat.add_zero])

/-- A shared row `[1, C]` cast to `[1, 1, C]` and broadcast over every table's rows. -/
theorem bcast_1c_abc {A B C : ℕ} (x : (⟨2, ![1, C]⟩ : Shape).Idx → α)
    (hc : (⟨2, ![1, C]⟩ : Shape).ShapeCasts ⟨3, ![1, 1, C]⟩) (hb : (⟨3, ![1, 1, C]⟩ : Shape).Broadcasts ⟨3, ![A, B, C]⟩)
    (p : Fin A) (n : Fin B) (c : Fin C) :
    broadcastTo ⟨3, ![A, B, C]⟩ (shapeCast ⟨3, ![1, 1, C]⟩ x hc) hb (ix3 p n c) = x (ix2 (0 : Fin 1) c) := by
  have e1 : broadcastTo ⟨3, ![A, B, C]⟩ (shapeCast ⟨3, ![1, 1, C]⟩ x hc) hb (ix3 p n c)
      = shapeCast ⟨3, ![1, 1, C]⟩ x hc (ix3 (0 : Fin 1) (0 : Fin 1) c) :=
    broadcastTo_apply _ hb (ix3 p n c) (ix3 (0 : Fin 1) (0 : Fin 1) c) fun ax => by
      match ax with
      | ⟨0, _⟩ => rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show 0 * C + c.val = (0 * 1 + 0) * C + c.val
    omega)

/-- A per-row number `[A, B]` cast to `[A, B, 1]` and broadcast across the row's columns. -/
theorem bcast_ab_abc {A B C : ℕ} (x : (⟨2, ![A, B]⟩ : Shape).Idx → α)
    (hc : (⟨2, ![A, B]⟩ : Shape).ShapeCasts ⟨3, ![A, B, 1]⟩) (hb : (⟨3, ![A, B, 1]⟩ : Shape).Broadcasts ⟨3, ![A, B, C]⟩)
    (p : Fin A) (n : Fin B) (c : Fin C) :
    broadcastTo ⟨3, ![A, B, C]⟩ (shapeCast ⟨3, ![A, B, 1]⟩ x hc) hb (ix3 p n c) = x (ix2 p n) := by
  have e1 : broadcastTo ⟨3, ![A, B, C]⟩ (shapeCast ⟨3, ![A, B, 1]⟩ x hc) hb (ix3 p n c)
      = shapeCast ⟨3, ![A, B, 1]⟩ x hc (ix3 p n (0 : Fin 1)) :=
    broadcastTo_apply _ hb (ix3 p n c) (ix3 p n (0 : Fin 1)) fun ax => by
      match ax with
      | ⟨0, _⟩ =>
        show p.val = if A = 1 then 0 else p.val
        split
        · have := p.isLt; omega
        · rfl
      | ⟨1, _⟩ =>
        show n.val = if B = 1 then 0 else n.val
        split
        · have := n.isLt; omega
        · rfl
      | ⟨2, _⟩ => rfl
  rw [e1]
  exact shapeCast_apply x hc _ _ (by
    rw [Shape.rowMajor_val_three, Shape.rowMajor_val_two]
    show p.val * B + n.val = (p.val * B + n.val) * 1 + 0
    omega)

/-- A one-entry array `[1, 1]` broadcast down a column `[R, 1]`. -/
theorem bcast_11_r1 {R : ℕ} (x : (⟨2, ![1, 1]⟩ : Shape).Idx → α) (hb : (⟨2, ![1, 1]⟩ : Shape).Broadcasts ⟨2, ![R, 1]⟩)
    (r : Fin R) (u : Fin 1) : broadcastTo ⟨2, ![R, 1]⟩ x hb (ix2 r u) = x (ix2 (0 : Fin 1) (0 : Fin 1)) :=
  broadcastTo_apply x hb (ix2 r u) (ix2 (0 : Fin 1) (0 : Fin 1)) fun ax => by
    match ax with
    | ⟨0, _⟩ => rfl
    | ⟨1, _⟩ => rfl

/-! ## Sums -/

/-- The sum over the rows of each table (axis 1 of `[A, B, C]`), from the zero word. -/
theorem sum_rows {A B C : ℕ} {φ : FTy} (x : FVec Ideal ⟨3, ![A, B, C]⟩ φ) (acc : BitVec φ.bits)
    (h : (⟨3, ![A, B, C]⟩ : Shape).Reduces [(1 : Fin 3)] ⟨2, ![A, C]⟩) (hφ : FKind.Formats φ)
    (hacc : acc = FKind.add.neutral φ hφ) (p : Fin A) (c : Fin C) :
    multiReduction .add [(1 : Fin 3)] ⟨2, ![A, C]⟩ x acc h hφ hacc (ix2 p c) = ∑ n : Fin B, x (ix3 p n c) := by
  refine (Ideal.multiReduction_add_single x acc h hφ hacc (ix2 p c)).trans ?_
  refine Finset.sum_congr rfl fun n _ => congrArg x ?_
  funext a
  apply Fin.ext
  match a with
  | ⟨0, _⟩ => rfl
  | ⟨1, _⟩ => rfl
  | ⟨2, _⟩ => rfl

/-- The sum over the columns of each flat row (axis 1 of `[R, E]`), from the zero word. -/
theorem sum_cols {R E : ℕ} {φ : FTy} (x : FVec Ideal ⟨2, ![R, E]⟩ φ) (acc : BitVec φ.bits)
    (h : (⟨2, ![R, E]⟩ : Shape).Reduces [(1 : Fin 2)] ⟨1, ![R]⟩) (hφ : FKind.Formats φ)
    (hacc : acc = FKind.add.neutral φ hφ) (r : Fin R) :
    multiReduction .add [(1 : Fin 2)] ⟨1, ![R]⟩ x acc h hφ hacc (ix1 r) = ∑ e : Fin E, x (ix2 r e) := by
  refine (Ideal.multiReduction_add_single x acc h hφ hacc (ix1 r)).trans ?_
  refine Finset.sum_congr rfl fun e _ => congrArg x ?_
  funext a
  apply Fin.ext
  match a with
  | ⟨0, _⟩ => rfl
  | ⟨1, _⟩ => rfl

/-! ## Two slices of a table -/

/-- The leading `M` columns of row 0 of every table, as `[A, M]`. -/
theorem head_row {A B C M : ℕ} (hM : M ≤ C) (hB : 0 < B) (x : (⟨3, ![A, B, C]⟩ : Shape).Idx → α)
    (hs : (⟨3, ![A, B, C]⟩ : Shape).Slices ![0, 0, 0] ⟨3, ![A, 1, M]⟩)
    (hc : (⟨3, ![A, 1, M]⟩ : Shape).ShapeCasts ⟨2, ![A, M]⟩) (p : Fin A) (i : Fin M) :
    shapeCast ⟨2, ![A, M]⟩ (extractStridedSlice ⟨3, ![A, 1, M]⟩ ![0, 0, 0] x hs) hc (ix2 p i)
      = x (ix3 p ⟨0, hB⟩ ⟨i.val, by have := i.isLt; omega⟩) := by
  have e1 : shapeCast ⟨2, ![A, M]⟩ (extractStridedSlice ⟨3, ![A, 1, M]⟩ ![0, 0, 0] x hs) hc (ix2 p i)
      = extractStridedSlice ⟨3, ![A, 1, M]⟩ ![0, 0, 0] x hs (ix3 p (0 : Fin 1) i) :=
    shapeCast_apply _ hc _ _ (by
      rw [Shape.rowMajor_val_three, Shape.rowMajor_val_two]
      show (p.val * 1 + 0) * M + i.val = p.val * M + i.val
      rw [Nat.mul_one, Nat.add_zero])
  rw [e1]
  refine extractStridedSlice_apply _ x hs _ _ fun a => ?_
  match a with
  | ⟨0, _⟩ => show p.val = 0 + p.val; omega
  | ⟨1, _⟩ => show 0 = 0 + 0; rfl
  | ⟨2, _⟩ => show i.val = 0 + i.val; omega

/-- Column `o` of every row of every table, as `[A, B]`. -/
theorem column {A B C : ℕ} (o : ℕ) (ho : o < C) (x : (⟨3, ![A, B, C]⟩ : Shape).Idx → α)
    (hs : (⟨3, ![A, B, C]⟩ : Shape).Slices ![0, 0, o] ⟨3, ![A, B, 1]⟩)
    (hc : (⟨3, ![A, B, 1]⟩ : Shape).ShapeCasts ⟨2, ![A, B]⟩) (p : Fin A) (n : Fin B) :
    shapeCast ⟨2, ![A, B]⟩ (extractStridedSlice ⟨3, ![A, B, 1]⟩ ![0, 0, o] x hs) hc (ix2 p n)
      = x (ix3 p n ⟨o, ho⟩) := by
  have e1 : shapeCast ⟨2, ![A, B]⟩ (extractStridedSlice ⟨3, ![A, B, 1]⟩ ![0, 0, o] x hs) hc (ix2 p n)
      = extractStridedSlice ⟨3, ![A, B, 1]⟩ ![0, 0, o] x hs (ix3 p n (0 : Fin 1)) :=
    shapeCast_apply _ hc _ _ (by
      rw [Shape.rowMajor_val_three, Shape.rowMajor_val_two]
      show (p.val * B + n.val) * 1 + 0 = p.val * B + n.val
      omega)
  rw [e1]
  refine extractStridedSlice_apply _ x hs _ _ fun a => ?_
  match a with
  | ⟨0, _⟩ => show p.val = 0 + p.val; omega
  | ⟨1, _⟩ => show n.val = 0 + n.val; omega
  | ⟨2, _⟩ => show o = o + 0; rfl

end Cert.BatchRows

end
-- ==== Proof.PoolBody.lean ====
/-
  THE POOLING BODY AT AN INDEX, at the ideal values.

  The body reads its block of embedded rows `x0 : [128, 50, 512]` and its block of weights `x1 : [128, 50]` as five slabs
  of ten history positions each.  For a slab it widens the rows, repeats each weight across the row's 512 columns, multiplies,
  and sums over the ten positions; the five partial sums are added, in order, onto a zero array, and the result is narrowed
  and stored as the whole output block.  Widening and narrowing are the identity on extended reals, so entry `(p, d)` of the
  block left is `((((0 + s₀) + s₁) + s₂) + s₃) + s₄` with `sₖ = ∑ n < 10, x0 (p, 10k + n, d) · x1 (p, 10k + n)`, which is the
  sum over all fifty positions: a sum over `Fin (a + b)` is the sum over the first `a` plus the sum over the last `b`, used
  four times, and `0 + x = x`.  Addition of extended reals is a commutative monoid, so no finiteness is needed.
-/
import proofs.«166119_j5952824673078_2_alg».proof.Proof.Gen.KernelIdeal.Frame
import proofs.«166119_j5952824673078_2_alg».proof.Proof.LibBatchRows
import proofs.«166119_j5952824673078_2_alg».proof.Proof.LibFormats

noncomputable section

open scoped BigOperators

namespace Cert.KernelIdeal.PoolValue

open Idealize.ShloMosaic Idealize.ShloMosaic.ValueIdx Cert.KernelIdeal Cert.KernelIdeal.Gen

/-! ## Sums over consecutive runs of positions -/

/-- A sum over `N = a + b` positions is the sum over the first `a` plus the sum over the `b` that follow. -/
theorem sum_split {M : Type} [AddCommMonoid M] (a b : ℕ) {N : ℕ} (hN : N = a + b) (f : Fin N → M) :
    ∑ l : Fin N, f l
      = (∑ i : Fin a, f ⟨i.val, by have := i.isLt; omega⟩) + ∑ j : Fin b, f ⟨a + j.val, by have := j.isLt; omega⟩ := by
  subst hN
  exact Fin.sum_univ_add f

/-- Fifty positions as five runs of ten, the partial sums added in order onto zero. -/
theorem sum_five_runs {M : Type} [AddCommMonoid M] (f : Fin 50 → M) :
    0 + (∑ n : Fin 10, f ⟨0 + n.val, by have := n.isLt; omega⟩) + (∑ n : Fin 10, f ⟨10 + n.val, by have := n.isLt; omega⟩)
        + (∑ n : Fin 10, f ⟨20 + n.val, by have := n.isLt; omega⟩) + (∑ n : Fin 10, f ⟨30 + n.val, by have := n.isLt; omega⟩)
        + (∑ n : Fin 10, f ⟨40 + n.val, by have := n.isLt; omega⟩)
      = ∑ l : Fin 50, f l := by
  rw [sum_split 40 10 rfl f,
    sum_split 30 10 rfl (fun i : Fin 40 => f ⟨i.val, by have := i.isLt; omega⟩),
    sum_split 20 10 rfl (fun i : Fin 30 => f ⟨i.val, by have := i.isLt; omega⟩),
    sum_split 10 10 rfl (fun i : Fin 20 => f ⟨i.val, by have := i.isLt; omega⟩),
    zero_add]
  have e0 : (∑ n : Fin 10, f ⟨0 + n.val, by have := n.isLt; omega⟩) = ∑ n : Fin 10, f ⟨n.val, by have := n.isLt; omega⟩ :=
    Finset.sum_congr rfl fun n _ => congrArg f (Fin.ext (Nat.zero_add _))
  rw [e0]

/-! ## One slab -/

/-- Ten consecutive positions of the embedded rows, from position `o`. -/
theorem slab_rows (x0 : Vec Ideal S128x50x512 .bf16) (o : ℕ)
    (inb : ∀ a, (![0, o, 0] : Fin 3 → ℕ) a + S128x10x512.size a ≤ S128x50x512.size a) (ho : o + 10 ≤ 50)
    (p : Fin 128) (n : Fin 10) (d : Fin 512) :
    View.ld x0 (Rect.unit (s := S128x50x512) ![0, o, 0] S128x10x512.size inb) (ix3 p n d)
      = x0 (ix3 p ⟨o + n.val, by have := n.isLt; omega⟩ d) := by
  show x0 _ = x0 _
  congr 1
  funext a
  apply Fin.ext
  match a with
  | ⟨0, _⟩ => show 0 + 1 * p.val = p.val; omega
  | ⟨1, _⟩ => show o + 1 * n.val = o + n.val; omega
  | ⟨2, _⟩ => show 0 + 1 * d.val = d.val; omega

/-- The same ten positions of the weights. -/
theorem slab_weights (x1 : Vec Ideal S128x50 .f32) (o : ℕ)
    (inb : ∀ a, (![0, o] : Fin 2 → ℕ) a + S128x10.size a ≤ S128x50.size a) (ho : o + 10 ≤ 50)
    (p : Fin 128) (n : Fin 10) :
    View.ld x1 (Rect.unit (s := S128x50) ![0, o] S128x10.size inb) (ix2 p n)
      = x1 (ix2 p ⟨o + n.val, by have := n.isLt; omega⟩) := by
  show x1 _ = x1 _
  congr 1
  funext a
  apply Fin.ext
  match a with
  | ⟨0, _⟩ => show 0 + 1 * p.val = p.val; omega
  | ⟨1, _⟩ => show o + 1 * n.val = o + n.val; omega

/-- A slab's rows times its weights, each weight repeated across its row. -/
theorem slab_prod (a : Vec Ideal S128x10x512 .bf16) (b : Vec Ideal S128x10 .f32) (p : Fin 128) (n : Fin 10) (d : Fin 512) :
    (mulf (extf .f32 (shapeCast S128x10x512 a shapeCasts_S128x10x512_S128x10x512) bitsLt_bf16_f32)
        (broadcastTo S128x10x512 (shapeCast S128x10x1 b shapeCasts_S128x10_S128x10x1) broadcasts_S128x10x1_S128x10x512)
        : FVec Ideal S128x10x512 .f32) (ix3 p n d)
      = a (ix3 p n d) * b (ix2 p n) := by
  rw [mulf_apply, extf_apply, shapeCast_self, Cert.BatchRows.bcast_ab_abc]

/-- A slab's contribution: the products summed over its ten positions. -/
theorem slab_sum (v : FVec Ideal S128x10x512 .f32) (p : Fin 128) (d : Fin 512) :
    multiReduction (F := Ideal) .add [1] S128x512 v 0x00000000#32 reduces_S128x10x512_S128x512 (.inl rfl) rfl (ix2 p d)
      = ∑ n : Fin 10, v (ix3 p n d) :=
  Cert.BatchRows.sum_rows v _ _ _ _ p d

/-- A slab's contribution in the body's own terms: rows widened, weights repeated, multiplied, summed over the ten positions. -/
theorem slab_term (a : Vec Ideal S128x10x512 .bf16) (b : Vec Ideal S128x10 .f32) (p : Fin 128) (d : Fin 512) :
    multiReduction (F := Ideal) .add [1] S128x512
        (mulf (extf .f32 (shapeCast S128x10x512 a shapeCasts_S128x10x512_S128x10x512) bitsLt_bf16_f32)
          (broadcastTo S128x10x512 (shapeCast S128x10x1 b shapeCasts_S128x10_S128x10x1) broadcasts_S128x10x1_S128x10x512))
        0x00000000#32 reduces_S128x10x512_S128x512 (.inl rfl) rfl (ix2 p d)
      = ∑ n : Fin 10, a (ix3 p n d) * b (ix2 p n) :=
  (slab_sum _ p d).trans (Finset.sum_congr rfl fun n _ => slab_prod a b p n d)

/-! ## The body -/

/-- What the body computes from five slabs: their contributions added in order onto zero (the final narrowing changes
    nothing). -/
theorem pay_apply (a0 a1 a2 a3 a4 : Vec Ideal S128x10x512 .bf16) (b0 b1 b2 b3 b4 : Vec Ideal S128x10 .f32)
    (p : Fin 128) (d : Fin 512) :
    (k0_pay1 (F := Ideal) (k0_pay2 a0 b0 a1 b1 a2 b2) (k0_pay3 a3 b3) a4 b4 : FVec Ideal S128x512 .bf16) (ix2 p d)
      = 0 + (∑ n : Fin 10, a0 (ix3 p n d) * b0 (ix2 p n)) + (∑ n : Fin 10, a1 (ix3 p n d) * b1 (ix2 p n))
          + (∑ n : Fin 10, a2 (ix3 p n d) * b2 (ix2 p n)) + (∑ n : Fin 10, a3 (ix3 p n d) * b3 (ix2 p n))
          + (∑ n : Fin 10, a4 (ix3 p n d) * b4 (ix2 p n)) := by
  unfold k0_pay1 k0_pay2 k0_pay3
  exact congrArg₂ (· + ·) (congrArg₂ (· + ·) (congrArg₂ (· + ·) (congrArg₂ (· + ·) (congrArg₂ (· + ·)
    Ideal.ofBits_zero_f32 (slab_term a0 b0 p d)) (slab_term a1 b1 p d)) (slab_term a2 b2 p d)) (slab_term a3 b3 p d))
    (slab_term a4 b4 p d)

theorem zero2 : (![0, 0] : Fin 2 → Nat) = fun _ => 0 := funext fun a => by fin_cases a <;> rfl

/-- THE BLOCK THE BODY LEAVES, at an index: the weighted sum over the fifty history positions. -/
theorem body_apply (x0 : Vec Ideal S128x50x512 .bf16) (x1 : Vec Ideal S128x50 .f32) (p : Fin 128) (d : Fin 512) :
    (out0_2 (F := Ideal) x0 x1 : S128x512.Idx → EReal) (ix2 p d) = ∑ l : Fin 50, x0 (ix3 p l d) * x1 (ix2 p l) := by
  unfold out0_2
  rw [View.canon_unit_zero zero2, pay_apply]
  simp only [slab_rows x0 _ _ (by omega : (0 : ℕ) + 10 ≤ 50), slab_rows x0 _ _ (by omega : (10 : ℕ) + 10 ≤ 50),
    slab_rows x0 _ _ (by omega : (20 : ℕ) + 10 ≤ 50), slab_rows x0 _ _ (by omega : (30 : ℕ) + 10 ≤ 50),
    slab_rows x0 _ _ (by omega : (40 : ℕ) + 10 ≤ 50),
    slab_weights x1 _ _ (by omega : (0 : ℕ) + 10 ≤ 50), slab_weights x1 _ _ (by omega : (10 : ℕ) + 10 ≤ 50),
    slab_weights x1 _ _ (by omega : (20 : ℕ) + 10 ≤ 50), slab_weights x1 _ _ (by omega : (30 : ℕ) + 10 ≤ 50),
    slab_weights x1 _ _ (by omega : (40 : ℕ) + 10 ≤ 50)]
  exact sum_five_runs (fun l : Fin 50 => x0 (ix3 p l d) * x1 (ix2 p l))

end Cert.KernelIdeal.PoolValue

end
-- ==== Proof.PoolArray.lean ====
/-
  THE POOLED ARRAY, from the blocks the pooling body leaves.

  The pooling runs over sixteen points; point `t` reads rows `128 t … 128 t + 127` of the embedded rows `e : [2048, 50, 512]`
  and of the weights `w : [2048, 50]`, and writes the same rows of the result `[2048, 512]`.  A block's coordinate on an axis is
  its block index times the block's extent plus the coordinate inside the block, and the block indices are `(t, 0, 0)`,
  `(t, 0)`, `(t, 0)`; so entry `(p, d)` of the block written at `t` is `∑ l, e (128 t + p, l, d) · w (128 t + p, l)`: block `t` of
  the pooled array `Cert.Spec.poolArr e w`.  The sixteen blocks of 128 rows tile the 2048 rows (row `r` is in block `r / 128`),
  so the result array ends holding the pooled array.
-/
import proofs.«166119_j5952824673078_2_alg».proof.Proof.PoolBody
import proofs.«166119_j5952824673078_2_alg».proof.Proof.Spec
import Idealize.ShloMosaic.Lib.Pipeline.Value

set_option maxRecDepth 16384

noncomputable section

open scoped BigOperators

namespace Cert.KernelIdeal.PoolValue

open Idealize.ShloMosaic Idealize.ShloMosaic.TcCoe Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The block indices at point `t`: `t` on the row axis, zero on the others. -/
theorem block_index : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 16 := lt_of_lt_of_eq t.isLt N_0

/-- Row `p` of the block at point `t` is row `128 t + p` of the array. -/
def blockRow (t : Fin cfg0.N) (p : Fin 128) : Fin 2048 :=
  ⟨128 * t.val + p.val, by have := point_lt t; have := p.isLt; omega⟩

/-- The block of embedded rows at point `t`, read off the array. -/
theorem rows_block (c : Dev nD) (t : Fin cfg0.N) (p : Fin 128) (l : Fin 50) (d : Fin 512) :
    (iblk0 V c 0 t : S128x50x512.Idx → EReal) (ix3 p l d)
      = (V c main_v32 : S2048x50x512.Idx → EReal) (ix3 (blockRow t p) l d) := by
  obtain ⟨e0, e1, e2, -⟩ := block_index t
  unfold iblk0
  rw [View.read_apply]
  show (V c main_v32 : S2048x50x512.Idx → EReal) _ = V c main_v32 _
  congr 1
  funext a
  apply Fin.ext
  match a with
  | ⟨0, _⟩ => show win0_0.index t (0 : Fin 3) * 128 + 1 * p.val = 128 * t.val + p.val; rw [e0]; omega
  | ⟨1, _⟩ => show win0_0.index t (1 : Fin 3) * 50 + 1 * l.val = l.val; rw [e1]; omega
  | ⟨2, _⟩ => show win0_0.index t (2 : Fin 3) * 512 + 1 * d.val = d.val; rw [e2]; omega

/-- The block of weights at point `t`, read off the array. -/
theorem weights_block (c : Dev nD) (t : Fin cfg0.N) (p : Fin 128) (l : Fin 50) :
    (iblk0 V c 1 t : S128x50.Idx → EReal) (ix2 p l)
      = (V c main_arg1 : S2048x50.Idx → EReal) (ix2 (blockRow t p) l) := by
  obtain ⟨-, -, -, e0, e1, -⟩ := block_index t
  unfold iblk0
  rw [View.read_apply]
  show (V c main_arg1 : S2048x50.Idx → EReal) _ = V c main_arg1 _
  congr 1
  funext a
  apply Fin.ext
  match a with
  | ⟨0, _⟩ => show win0_1.index t (0 : Fin 2) * 128 + 1 * p.val = 128 * t.val + p.val; rw [e0]; omega
  | ⟨1, _⟩ => show win0_1.index t (1 : Fin 2) * 50 + 1 * l.val = l.val; rw [e1]; omega

/-- Where entry `(p, d)` of the result's block at point `t` lies in the result array. -/
theorem result_place (t : Fin cfg0.N) (p : Fin 128) (d : Fin 512) :
    ((cfg0.win 2).blk t).view.emb (ix2 p d) = (ix2 (blockRow t p) d : S2048x512.Idx) := by
  obtain ⟨-, -, -, -, -, e0, e1⟩ := block_index t
  funext a
  apply Fin.ext
  match a with
  | ⟨0, _⟩ => show win0_2.index t (0 : Fin 2) * 128 + 1 * p.val = 128 * t.val + p.val; rw [e0]; omega
  | ⟨1, _⟩ => show win0_2.index t (1 : Fin 2) * 512 + 1 * d.val = d.val; rw [e1]; omega

/-- WHAT POINT `t` WRITES BACK is block `t` of the pooled array of the arrays as the region finds them. -/
theorem flushed_eq (c : Dev nD) (t : Fin cfg0.N) :
    (dat0 (F := Ideal) V c).flushed 2 t
      = ((cfg0.win 2).blk t).view.read (Elt Ideal)
          (Cert.Spec.poolArr (V c main_v32 : S2048x50x512.Idx → EReal) (V c main_arg1 : S2048x50.Idx → EReal)) := by
  show (cfg0.win 2).cut (grid0.coords t) ((dat0 V c).after 2 t) = _
  rw [after0_2]
  funext j
  obtain ⟨p, d, rfl⟩ : ∃ (p : Fin 128) (d : Fin 512), j = ix2 p d := ⟨j 0, j 1, eq_ix2 j⟩
  show (out0_2 (F := Ideal) (iblk0 V c 0 t) (iblk0 V c 1 t) : S128x512.Idx → EReal) (ix2 p d)
    = Cert.Spec.poolArr (V c main_v32 : S2048x50x512.Idx → EReal) (V c main_arg1 : S2048x50.Idx → EReal)
        (((cfg0.win 2).blk t).view.emb (ix2 p d))
  refine (body_apply (iblk0 V c 0 t) (iblk0 V c 1 t) p d).trans ?_
  rw [result_place, Cert.Spec.poolArr_apply]
  exact Finset.sum_congr rfl fun l _ => by rw [rows_block, weights_block]

/-- An index of the result array is in point `t`'s block iff each coordinate is in the block's range on its axis. -/
theorem mem_block (t : Fin cfg0.N) (i : S2048x512.Idx) :
    i ∈ ((cfg0.win 2).blk t).view.set
      ↔ ∀ a : Fin 2, win0_2.index t a * S128x512.size a ≤ (i a).val
          ∧ (i a).val < win0_2.index t a * S128x512.size a + S128x512.size a := by
  show i ∈ ((View.whole main_v33).slice (win0_2.rect t)).set ↔ _
  rw [View.set_slice_whole, Rect.mem_set_unit]
  exact Iff.rfl

/-- Every index of the result array is in the block of the point its row falls in. -/
theorem covered (i : S2048x512.Idx) :
    ∃ t : Fin cfg0.N, (cfg0.win 2).flush t = true ∧ i ∈ ((cfg0.win 2).blk t).view.set := by
  have h0 : (i 0).val < 2048 := (i 0).isLt
  have h1 : (i 1).val < 512 := (i 1).isLt
  let t : Fin cfg0.N := ⟨(i 0).val / 128, by rw [show cfg0.N = 16 from N_0]; omega⟩
  have ht : t.val = (i 0).val / 128 := rfl
  obtain ⟨-, -, -, -, -, e0, e1⟩ := block_index t
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    rw [e0]; omega
  | ⟨1, _⟩ =>
    show win0_2.index t (1 : Fin 2) * 512 ≤ (i 1).val ∧ (i 1).val < win0_2.index t (1 : Fin 2) * 512 + 512
    rw [e1]; omega

/-- THE RESULT ARRAY after the pooling: the pooled array of the embedded rows and the weights as the region finds them. -/
theorem final0 (c : Dev nD) :
    ((dat0 (F := Ideal) V c).arrAt 2 cfg0.N : S2048x512.Idx → EReal)
      = Cert.Spec.poolArr (V c main_v32 : S2048x50x512.Idx → EReal) (V c main_arg1 : S2048x50.Idx → EReal) :=
  (dat0 (F := Ideal) V c).arrAt_eq_of_cover 2 _ (fun t _ => flushed_eq V c t) covered

end Cert.KernelIdeal.PoolValue

end
-- ==== Proof.KTail.lean ====
/-
  THE IDEALIZED KERNEL PROGRAM'S RESULT, READ BACK TO THE TWO REGIONS.

  After the second region one host operation is left: the result is the first 1000 columns of the region's 1024-column
  output array.  That array is the three layers applied to what the region found (the pooled array the first region
  left, and the three gathered weight arrays, the last padded to 1024 columns), and the pooled array is the pooling of
  what the first region found.  The host operations between the two regions write neither region's arrays.
-/
import proofs.«166119_j5952824673078_2_alg».proof.Proof.MlpArray
import proofs.«166119_j5952824673078_2_alg».proof.Proof.PoolArray
import Idealize.ShloMosaic.Lib.StableHlo.Run

set_option maxRecDepth 16384

noncomputable section

namespace Cert.KernelIdeal.KValue

open Idealize.ShloMosaic Idealize.ShloMosaic.TcCoe Idealize.ShloMosaic.StableHlo Idealize.ShloMosaic.ValueIdx
open Idealize.SL.Sem Cert.KernelIdeal Cert.KernelIdeal.Gen

variable (m : (ℓ : Loc nD τ sig) → Buf (Elt Ideal) ℓ) (ρ : Dev nD → PrngReg)

/-- The result is the leading 1000 columns of the second region's output array as the region leaves it. -/
theorem result_slice (c : Dev nD) :
    W11 m ρ c (Proc.devRef .tc main_v57)
      = extractStridedSlice S2048x1000 ![0, 0] (W10 m ρ c (Proc.devRef .tc main_v56)) slices_S2048x1024_S2048x1000_0_0 := by
  show StableHlo.after hostOps2 (W10 m ρ c) (Proc.devRef .tc main_v57) = _
  simp only [hostOps2]
  after_results

/-- The second region's output array is the three layers of what the region found. -/
theorem region1_out (c : Dev nD) :
    (W10 m ρ c (Proc.devRef .tc main_v56) : S2048x1024.Idx → EReal) = Cert.KernelIdeal.MlpValue.layers (V9 m ρ) c :=
  (W10_arr m ρ c 4).trans (Cert.KernelIdeal.MlpValue.final1 (V9 m ρ) c)

/-- The host operations between the regions do not write the pooled array: the second region finds what the first left,
    the pooling of what the first region found. -/
theorem pooled (c : Dev nD) :
    (V9 m ρ c main_v33 : S2048x512.Idx → EReal)
      = Cert.Spec.poolArr (V6 m ρ c main_v32 : S2048x50x512.Idx → EReal) (V6 m ρ c main_arg1 : S2048x50.Idx → EReal) := by
  have h1 : W9 m ρ c (Proc.devRef .tc main_v33) = W8 m ρ c (Proc.devRef .tc main_v33) :=
    StableHlo.after_of_forall_not_mem (b := Proc.devRef .tc main_v33) _ _ (List.forall_iff_forall_mem.mp (by
      simp only [hostOps1_1, List.Forall, StableHlo.nullary_writes, StableHlo.unary_writes, StableHlo.binary_writes,
        StableHlo.ternary_writes, Finset.mem_singleton]
      repeat' apply And.intro
      all_goals exact StableHlo.devRef_ne_of_ne (by decide)))
  have h2 : W8 m ρ c (Proc.devRef .tc main_v33) = W7 m ρ c (Proc.devRef .tc main_v33) :=
    StableHlo.after_of_forall_not_mem (b := Proc.devRef .tc main_v33) _ _ (List.forall_iff_forall_mem.mp (by
      simp only [hostOps1, List.Forall, StableHlo.nullary_writes, StableHlo.unary_writes, StableHlo.binary_writes,
        StableHlo.ternary_writes, Finset.mem_singleton]
      repeat' apply And.intro
      all_goals exact StableHlo.devRef_ne_of_ne (by decide)))
  exact (h1.trans (h2.trans (W7_arr m ρ c 2))).trans (Cert.KernelIdeal.PoolValue.final0 (V6 m ρ) c)

end Cert.KernelIdeal.KValue

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.KReads.lean ====
/-
  WHAT THE HOST OPERATIONS AROUND THE POOLING READ IS WHAT WAS LAUNCHED.

  Between the launch and the pooling the host only computes new arrays: none of its operations writes an argument, and the
  pooling writes its own result array only.  So when the pooling is entered the weights are as launched; and when it is left
  the three index arguments of the layers are as launched, and the table the layers gather from — the launched table
  narrowed to the short float format by the host's first operation, and narrowing is the identity on extended reals — is
  the launched table.
-/
import proofs.«166119_j5952824673078_2_alg».proof.Proof.Gen.KernelIdeal.Frame
import proofs.«166119_j5952824673078_2_alg».proof.Proof.LibTypedRef
import proofs.«166119_j5952824673078_2_alg».proof.Proof.LibFormats
import Idealize.ShloMosaic.Lib.StableHlo.Run
import Idealize.ShloMosaic.PureOps.Ideal

set_option maxRecDepth 16384

noncomputable section

namespace Cert.KernelIdeal.KValue

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

set_option maxHeartbeats 4000000 in
/-- The table the layers gather from, at the pooling's exit, is the launched table. -/
theorem table_at_exit (c : Dev nD) :
    (W7 m ρ c (Proc.devRef .tc main_v0) : S2000000.Idx → EReal) = m ((c : Thread nD τ).loc main_arg2) := by
  rw [W7_of_ne m ρ c main_v0 (by decide)]
  dsimp only [W6, W5, W4, W3, W2, W1]
  simp only [hostOps0, hostOps0_1, hostOps0_2, hostOps0_3, hostOps0_4, hostOps0_5]
  after_results_simp
  rfl

set_option maxHeartbeats 4000000 in
/-- The first layer's indices at the pooling's exit are as launched. -/
theorem arg3_at_exit (c : Dev nD) : W7 m ρ c (Proc.devRef .tc main_arg3) = m ((c : Thread nD τ).loc main_arg3) := by
  rw [W7_of_ne m ρ c main_arg3 (by decide)]
  dsimp only [W6, W5, W4, W3, W2, W1]
  simp only [hostOps0, hostOps0_1, hostOps0_2, hostOps0_3, hostOps0_4, hostOps0_5]
  after_results_simp

set_option maxHeartbeats 4000000 in
/-- The second layer's indices at the pooling's exit are as launched. -/
theorem arg4_at_exit (c : Dev nD) : W7 m ρ c (Proc.devRef .tc main_arg4) = m ((c : Thread nD τ).loc main_arg4) := by
  rw [W7_of_ne m ρ c main_arg4 (by decide)]
  dsimp only [W6, W5, W4, W3, W2, W1]
  simp only [hostOps0, hostOps0_1, hostOps0_2, hostOps0_3, hostOps0_4, hostOps0_5]
  after_results_simp

set_option maxHeartbeats 4000000 in
/-- The third layer's indices at the pooling's exit are as launched. -/
theorem arg5_at_exit (c : Dev nD) : W7 m ρ c (Proc.devRef .tc main_arg5) = m ((c : Thread nD τ).loc main_arg5) := by
  rw [W7_of_ne m ρ c main_arg5 (by decide)]
  dsimp only [W6, W5, W4, W3, W2, W1]
  simp only [hostOps0, hostOps0_1, hostOps0_2, hostOps0_3, hostOps0_4, hostOps0_5]
  after_results_simp

set_option maxHeartbeats 4000000 in
/-- The weights when the pooling is entered are as launched. -/
theorem weights_at_entry (c : Dev nD) : V6 m ρ c main_arg1 = m ((c : Thread nD τ).loc main_arg1) := by
  dsimp only [V6, W6, W5, W4, W3, W2, W1]
  simp only [hostOps0, hostOps0_1, hostOps0_2, hostOps0_3, hostOps0_4, hostOps0_5]
  after_results_simp

end Cert.KernelIdeal.KValue

end
-- ==== Proof.LibStraightLine.lean ====
/-
  A straight-line host program cut into lines: three general facts, for writing by hand the run of a program whose
  operations come as a list of lists (one list per stretch of @main or per function written out at its call).

  * `after_append` — the contents after two lists of operations run one after the other is the fold over the second
    from the fold over the first;
  * `chain_seq` — lines run one after another are their concatenation run as one line, so an @main proved equal to
    the chain of its lines is `seq` of the flattened list, the form `StableHlo.run_seq` takes;
  * `forall_flatten` — a property of every operation of every line holds of every operation of the flattened list
    (the side conditions `run_seq` asks: each operation touches TensorCore references only, and fixes its results).
-/
import Idealize.ShloMosaic.Lib.StableHlo.Run
import Idealize.ShloMosaic.Lib.Pipeline.Regions

noncomputable section

namespace Cert.StraightLine

open Idealize.ShloMosaic Idealize.SL.Sem Idealize.ShloMosaic.StableHlo

variable {nD : Nat} {τ : Topo} {sig : RefSig} {Val : EltTy → Type} {Λ : Labels}

/-- Operations run one list after another: the fold over a concatenation is the fold over the second list from the
    fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Lines run one after another are their concatenation run as one line. -/
theorem chain_seq (L : List (List (HloOp τ sig Val))) :
    Pipeline.chain (L.map fun l => (seq l : Prog (TpuEff nD τ sig Val Λ .tc) PUnit)) = seq L.flatten := by
  induction L with
  | nil => rfl
  | cons l L ih =>
    rw [List.map_cons, Pipeline.chain_cons, ih, List.flatten_cons, StableHlo.seq_append]

/-- A property of every element of every list holds of every element of their concatenation. -/
theorem forall_flatten {α : Type} {p : α → Prop} (L : List (List α)) (h : L.Forall fun l => l.Forall p) : L.flatten.Forall p :=
  List.forall_iff_forall_mem.mpr fun x hx => by
    obtain ⟨l, hl, hxl⟩ := List.mem_flatten.mp hx
    exact List.forall_iff_forall_mem.mp (List.forall_iff_forall_mem.mp h l hl) x hxl

end Cert.StraightLine

end
-- ==== Proof.RefOps.lean ====
/-
  THE REFERENCE PROGRAM AS A STRAIGHT LINE.

  The reference's entry function is seventy-three host operations and three calls of outlined functions: the remainder
  function twice (twenty operations and, inside it, a one-operation selection function) and a masking function of four
  operations.  Written out at its call over the call's own buffers, each function is a list of operations, and the whole
  program is the ten lists below run one after another: 119 operations in all.  The cut follows the mathematics: the six
  lists `opsA0 … opsA5` compute the masked embedded rows (main_v31) from the history indices and the table; `opsPool`
  pools them with the weights; `opsL1`, `opsL2`, `opsL3` are the three layers.

  Proved here: the entry function IS that straight line (`main_eq`), every operation touches device buffers of the
  TensorCore only and fixes its results, and hence (`run_after`) every weakly fair execution terminates with every buffer
  at the fold of the operations over the launch contents.
-/
import proofs.«166119_j5952824673078_2_alg».proof.Proof.Gen.ReferenceIdeal
import proofs.«166119_j5952824673078_2_alg».proof.Proof.LibStraightLine
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The index chain's first sixteen operations: the history indices spread over a trailing unit axis, scaled, and added to sixteen scaled offsets and a constant. -/
abbrev opsA0 : List (HloOp τ sig (Elt F)) :=
  [ StableHlo.nullary main_v0 (iotaInDim S16 32 0),
    StableHlo.unary main_arg0 main_v1 (broadcastInDim S2048x50x1 ![0, 1] bcast_S2048x50_S2048x50x1_0_1 : (⟨S2048x50, .i32⟩ : BufTy).Contents (Elt F) → (⟨S2048x50x1, .i32⟩ : BufTy).Contents (Elt F)),
    StableHlo.nullary main_c (constantI S_ 32 1000003#32),
    StableHlo.unary main_c main_v2 (broadcastInDim S2048x50x1 ![] bcast_S_S2048x50x1 : (⟨S_, .i32⟩ : BufTy).Contents (Elt F) → (⟨S2048x50x1, .i32⟩ : BufTy).Contents (Elt F)),
    StableHlo.binary main_v2 main_v1 main_v3 (muli : (⟨S2048x50x1, .i32⟩ : BufTy).Contents (Elt F) → (⟨S2048x50x1, .i32⟩ : BufTy).Contents (Elt F) → (⟨S2048x50x1, .i32⟩ : BufTy).Contents (Elt F)),
    StableHlo.nullary main_c_0 (constantI S_ 32 193939#32),
    StableHlo.unary main_c_0 main_v4 (broadcastInDim S16 ![] bcast_S_S16 : (⟨S_, .i32⟩ : BufTy).Contents (Elt F) → (⟨S16, .i32⟩ : BufTy).Contents (Elt F)),
    StableHlo.binary main_v4 main_v0 main_v5 (muli : (⟨S16, .i32⟩ : BufTy).Contents (Elt F) → (⟨S16, .i32⟩ : BufTy).Contents (Elt F) → (⟨S16, .i32⟩ : BufTy).Contents (Elt F)),
    StableHlo.unary main_v5 main_v6 (broadcastInDim S1x1x16 ![2] bcast_S16_S1x1x16_2 : (⟨S16, .i32⟩ : BufTy).Contents (Elt F) → (⟨S1x1x16, .i32⟩ : BufTy).Contents (Elt F)),
    StableHlo.unary main_v3 main_v7 (broadcastInDim S2048x50x16 ![0, 1, 2] bcast_S2048x50x1_S2048x50x16_0_1_2 : (⟨S2048x50x1, .i32⟩ : BufTy).Contents (Elt F) → (⟨S2048x50x16, .i32⟩ : BufTy).Contents (Elt F)),
    StableHlo.unary main_v6 main_v8 (broadcastInDim S2048x50x16 ![0, 1, 2] bcast_S1x1x16_S2048x50x16_0_1_2 : (⟨S1x1x16, .i32⟩ : BufTy).Contents (Elt F) → (⟨S2048x50x16, .i32⟩ : BufTy).Contents (Elt F)),
    StableHlo.binary main_v7 main_v8 main_v9 (addi : (⟨S2048x50x16, .i32⟩ : BufTy).Contents (Elt F) → (⟨S2048x50x16, .i32⟩ : BufTy).Contents (Elt F) → (⟨S2048x50x16, .i32⟩ : BufTy).Contents (Elt F)),
    StableHlo.nullary main_c_1 (constantI S_ 32 7919#32),
    StableHlo.unary main_c_1 main_v10 (broadcastInDim S2048x50x16 ![] bcast_S_S2048x50x16 : (⟨S_, .i32⟩ : BufTy).Contents (Elt F) → (⟨S2048x50x16, .i32⟩ : BufTy).Contents (Elt F)),
    StableHlo.binary main_v9 main_v10 main_v11 (addi : (⟨S2048x50x16, .i32⟩ : BufTy).Contents (Elt F) → (⟨S2048x50x16, .i32⟩ : BufTy).Contents (Elt F) → (⟨S2048x50x16, .i32⟩ : BufTy).Contents (Elt F)),
    StableHlo.nullary main_c_2 (constantI S_ 32 2147483647#32) ]

/-- The first remainder (modulus 2147483647), its twenty-one operations written out over its own buffers; its result is main_v12. -/
abbrev opsA1 : List (HloOp τ sig (Elt F)) :=
  [ StableHlo.TRef.unary (.of main_c_2 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S2048x50x16, .i32⟩) (broadcastInDim S2048x50x16 ![] bcast_S_S2048x50x16),
    StableHlo.TRef.binary (.of main_v11 : StableHlo.TRef sig ⟨S2048x50x16, .i32⟩) (.of main_call0_v3 : StableHlo.TRef sig ⟨S2048x50x16, .i32⟩) (.of main_call0_v4 : StableHlo.TRef sig ⟨S2048x50x16, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S2048x50x16, .i32⟩) (broadcastInDim S2048x50x16 ![] bcast_S_S2048x50x16),
    StableHlo.TRef.binary (.of main_call0_v4 : StableHlo.TRef sig ⟨S2048x50x16, .i32⟩) (.of main_call0_v5 : StableHlo.TRef sig ⟨S2048x50x16, .i32⟩) (.of main_call0_v6 : StableHlo.TRef sig ⟨S2048x50x16, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S2048x50x16, .i32⟩) (broadcastInDim S2048x50x16 ![] bcast_S_S2048x50x16),
    StableHlo.TRef.binary (.of main_call0_v4 : StableHlo.TRef sig ⟨S2048x50x16, .i32⟩) (.of main_call0_v7 : StableHlo.TRef sig ⟨S2048x50x16, .i32⟩) (.of main_call0_v8 : StableHlo.TRef sig ⟨S2048x50x16, .i1⟩) (cmpi .slt),
    StableHlo.TRef.nullary (.of main_call0_c_3 : StableHlo.TRef sig ⟨S_, .i32⟩) (constantI S_ 32 0#32),
    StableHlo.TRef.binary (.of main_call0_v2 : StableHlo.TRef sig ⟨S_, .i32⟩) (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S2048x50x16, .i1⟩) (broadcastInDim S2048x50x16 ![] bcast_S_S2048x50x16),
    StableHlo.TRef.binary (.of main_call0_v8 : StableHlo.TRef sig ⟨S2048x50x16, .i1⟩) (.of main_call0_v10 : StableHlo.TRef sig ⟨S2048x50x16, .i1⟩) (.of main_call0_v11 : StableHlo.TRef sig ⟨S2048x50x16, .i1⟩) (cmpi .ne),
    StableHlo.TRef.binary (.of main_call0_v11 : StableHlo.TRef sig ⟨S2048x50x16, .i1⟩) (.of main_call0_v6 : StableHlo.TRef sig ⟨S2048x50x16, .i1⟩) (.of main_call0_v12 : StableHlo.TRef sig ⟨S2048x50x16, .i1⟩) andi,
    StableHlo.TRef.unary (.of main_call0_v2 : StableHlo.TRef sig ⟨S_, .i32⟩) (.of main_call0_v13 : StableHlo.TRef sig ⟨S2048x50x16, .i32⟩) (broadcastInDim S2048x50x16 ![] bcast_S_S2048x50x16),
    StableHlo.TRef.binary (.of main_call0_v4 : StableHlo.TRef sig ⟨S2048x50x16, .i32⟩) (.of main_call0_v13 : StableHlo.TRef sig ⟨S2048x50x16, .i32⟩) (.of main_call0_v14 : StableHlo.TRef sig ⟨S2048x50x16, .i32⟩) addi,
    StableHlo.TRef.ternary (.of main_call0_v12 : StableHlo.TRef sig ⟨S2048x50x16, .i1⟩) (.of main_call0_v14 : StableHlo.TRef sig ⟨S2048x50x16, .i32⟩) (.of main_call0_v4 : StableHlo.TRef sig ⟨S2048x50x16, .i32⟩) (.of main_v12 : StableHlo.TRef sig ⟨S2048x50x16, .i32⟩) select ]

/-- The second modulus, 1999968. -/
abbrev opsA2 : List (HloOp τ sig (Elt F)) :=
  [ StableHlo.nullary main_c_3 (constantI S_ 32 1999968#32) ]

/-- The second remainder, written out likewise; its result is main_v13. -/
abbrev opsA3 : List (HloOp τ sig (Elt F)) :=
  [ StableHlo.TRef.unary (.of main_c_3 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S2048x50x16, .i32⟩) (broadcastInDim S2048x50x16 ![] bcast_S_S2048x50x16),
    StableHlo.TRef.binary (.of main_v12 : StableHlo.TRef sig ⟨S2048x50x16, .i32⟩) (.of main_call1_v3 : StableHlo.TRef sig ⟨S2048x50x16, .i32⟩) (.of main_call1_v4 : StableHlo.TRef sig ⟨S2048x50x16, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S2048x50x16, .i32⟩) (broadcastInDim S2048x50x16 ![] bcast_S_S2048x50x16),
    StableHlo.TRef.binary (.of main_call1_v4 : StableHlo.TRef sig ⟨S2048x50x16, .i32⟩) (.of main_call1_v5 : StableHlo.TRef sig ⟨S2048x50x16, .i32⟩) (.of main_call1_v6 : StableHlo.TRef sig ⟨S2048x50x16, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S2048x50x16, .i32⟩) (broadcastInDim S2048x50x16 ![] bcast_S_S2048x50x16),
    StableHlo.TRef.binary (.of main_call1_v4 : StableHlo.TRef sig ⟨S2048x50x16, .i32⟩) (.of main_call1_v7 : StableHlo.TRef sig ⟨S2048x50x16, .i32⟩) (.of main_call1_v8 : StableHlo.TRef sig ⟨S2048x50x16, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S2048x50x16, .i1⟩) (broadcastInDim S2048x50x16 ![] bcast_S_S2048x50x16),
    StableHlo.TRef.binary (.of main_call1_v8 : StableHlo.TRef sig ⟨S2048x50x16, .i1⟩) (.of main_call1_v10 : StableHlo.TRef sig ⟨S2048x50x16, .i1⟩) (.of main_call1_v11 : StableHlo.TRef sig ⟨S2048x50x16, .i1⟩) (cmpi .ne),
    StableHlo.TRef.binary (.of main_call1_v11 : StableHlo.TRef sig ⟨S2048x50x16, .i1⟩) (.of main_call1_v6 : StableHlo.TRef sig ⟨S2048x50x16, .i1⟩) (.of main_call1_v12 : StableHlo.TRef sig ⟨S2048x50x16, .i1⟩) andi,
    StableHlo.TRef.unary (.of main_call1_v2 : StableHlo.TRef sig ⟨S_, .i32⟩) (.of main_call1_v13 : StableHlo.TRef sig ⟨S2048x50x16, .i32⟩) (broadcastInDim S2048x50x16 ![] bcast_S_S2048x50x16),
    StableHlo.TRef.binary (.of main_call1_v4 : StableHlo.TRef sig ⟨S2048x50x16, .i32⟩) (.of main_call1_v13 : StableHlo.TRef sig ⟨S2048x50x16, .i32⟩) (.of main_call1_v14 : StableHlo.TRef sig ⟨S2048x50x16, .i32⟩) addi,
    StableHlo.TRef.ternary (.of main_call1_v12 : StableHlo.TRef sig ⟨S2048x50x16, .i1⟩) (.of main_call1_v14 : StableHlo.TRef sig ⟨S2048x50x16, .i32⟩) (.of main_call1_v4 : StableHlo.TRef sig ⟨S2048x50x16, .i32⟩) (.of main_v13 : StableHlo.TRef sig ⟨S2048x50x16, .i32⟩) select ]

/-- Thirty-two consecutive table positions from each remainder, wrapped when negative, gathered from the table and reshaped to rows of width 512; and the mask of the zero history indices. -/
abbrev opsA4 : List (HloOp τ sig (Elt F)) :=
  [ StableHlo.unary main_v13 main_v14 (broadcastInDim S2048x50x16x1 ![0, 1, 2] bcast_S2048x50x16_S2048x50x16x1_0_1_2 : (⟨S2048x50x16, .i32⟩ : BufTy).Contents (Elt F) → (⟨S2048x50x16x1, .i32⟩ : BufTy).Contents (Elt F)),
    StableHlo.nullary main_v15 (iotaInDim S32 32 0),
    StableHlo.unary main_v15 main_v16 (broadcastInDim S1x1x1x32 ![3] bcast_S32_S1x1x1x32_3 : (⟨S32, .i32⟩ : BufTy).Contents (Elt F) → (⟨S1x1x1x32, .i32⟩ : BufTy).Contents (Elt F)),
    StableHlo.unary main_v14 main_v17 (broadcastInDim S2048x50x16x32 ![0, 1, 2, 3] bcast_S2048x50x16x1_S2048x50x16x32_0_1_2_3 : (⟨S2048x50x16x1, .i32⟩ : BufTy).Contents (Elt F) → (⟨S2048x50x16x32, .i32⟩ : BufTy).Contents (Elt F)),
    StableHlo.unary main_v16 main_v18 (broadcastInDim S2048x50x16x32 ![0, 1, 2, 3] bcast_S1x1x1x32_S2048x50x16x32_0_1_2_3 : (⟨S1x1x1x32, .i32⟩ : BufTy).Contents (Elt F) → (⟨S2048x50x16x32, .i32⟩ : BufTy).Contents (Elt F)),
    StableHlo.binary main_v17 main_v18 main_v19 (addi : (⟨S2048x50x16x32, .i32⟩ : BufTy).Contents (Elt F) → (⟨S2048x50x16x32, .i32⟩ : BufTy).Contents (Elt F) → (⟨S2048x50x16x32, .i32⟩ : BufTy).Contents (Elt F)),
    StableHlo.nullary main_c_4 (constantI S_ 32 0#32),
    StableHlo.unary main_c_4 main_v20 (broadcastInDim S2048x50x16x32 ![] bcast_S_S2048x50x16x32 : (⟨S_, .i32⟩ : BufTy).Contents (Elt F) → (⟨S2048x50x16x32, .i32⟩ : BufTy).Contents (Elt F)),
    StableHlo.binary main_v19 main_v20 main_v21 (cmpi .slt : (⟨S2048x50x16x32, .i32⟩ : BufTy).Contents (Elt F) → (⟨S2048x50x16x32, .i32⟩ : BufTy).Contents (Elt F) → (⟨S2048x50x16x32, .i1⟩ : BufTy).Contents (Elt F)),
    StableHlo.nullary main_c_5 (constantI S_ 32 2000000#32),
    StableHlo.unary main_c_5 main_v22 (broadcastInDim S2048x50x16x32 ![] bcast_S_S2048x50x16x32 : (⟨S_, .i32⟩ : BufTy).Contents (Elt F) → (⟨S2048x50x16x32, .i32⟩ : BufTy).Contents (Elt F)),
    StableHlo.binary main_v19 main_v22 main_v23 (addi : (⟨S2048x50x16x32, .i32⟩ : BufTy).Contents (Elt F) → (⟨S2048x50x16x32, .i32⟩ : BufTy).Contents (Elt F) → (⟨S2048x50x16x32, .i32⟩ : BufTy).Contents (Elt F)),
    StableHlo.ternary main_v21 main_v23 main_v19 main_v24 (select : (⟨S2048x50x16x32, .i1⟩ : BufTy).Contents (Elt F) → (⟨S2048x50x16x32, .i32⟩ : BufTy).Contents (Elt F) → (⟨S2048x50x16x32, .i32⟩ : BufTy).Contents (Elt F) → (⟨S2048x50x16x32, .i32⟩ : BufTy).Contents (Elt F)),
    StableHlo.unary main_v24 main_v25 (broadcastInDim S2048x50x16x32x1 ![0, 1, 2, 3] bcast_S2048x50x16x32_S2048x50x16x32x1_0_1_2_3 : (⟨S2048x50x16x32, .i32⟩ : BufTy).Contents (Elt F) → (⟨S2048x50x16x32x1, .i32⟩ : BufTy).Contents (Elt F)),
    StableHlo.binary main_arg2 main_v25 main_v26 ((fun x i => Host.gather gather_S2000000_S2048x50x16x32x1_S2048x50x16x32_n_0_n_n_0_4_1 x i) : (⟨S2000000, .f32⟩ : BufTy).Contents (Elt F) → (⟨S2048x50x16x32x1, .i32⟩ : BufTy).Contents (Elt F) → (⟨S2048x50x16x32, .f32⟩ : BufTy).Contents (Elt F)),
    StableHlo.reshape main_v26 main_v27 rfl shapeCasts_S2048x50x16x32_S2048x50x512,
    StableHlo.nullary main_c_6 (constantI S_ 32 0#32),
    StableHlo.unary main_c_6 main_v28 (broadcastInDim S2048x50 ![] bcast_S_S2048x50 : (⟨S_, .i32⟩ : BufTy).Contents (Elt F) → (⟨S2048x50, .i32⟩ : BufTy).Contents (Elt F)),
    StableHlo.binary main_arg0 main_v28 main_v29 (cmpi .eq : (⟨S2048x50, .i32⟩ : BufTy).Contents (Elt F) → (⟨S2048x50, .i32⟩ : BufTy).Contents (Elt F) → (⟨S2048x50, .i1⟩ : BufTy).Contents (Elt F)),
    StableHlo.unary main_v29 main_v30 (broadcastInDim S2048x50x1 ![0, 1] bcast_S2048x50_S2048x50x1_0_1 : (⟨S2048x50, .i1⟩ : BufTy).Contents (Elt F) → (⟨S2048x50x1, .i1⟩ : BufTy).Contents (Elt F)),
    StableHlo.nullary main_cst (constant S_ .f32 0x00000000#32) ]

/-- The masking function written out: rows whose history index is zero are replaced by zero; its result is main_v31. -/
abbrev opsA5 : List (HloOp τ sig (Elt F)) :=
  [ StableHlo.TRef.unary (.of main_cst : StableHlo.TRef sig ⟨S_, .f32⟩) (.of main_call2_v0 : StableHlo.TRef sig ⟨S_, .f32⟩) id,
    StableHlo.TRef.unary (.of main_v30 : StableHlo.TRef sig ⟨S2048x50x1, .i1⟩) (.of main_call2_v1 : StableHlo.TRef sig ⟨S2048x50x512, .i1⟩) (broadcastInDim S2048x50x512 ![0, 1, 2] bcast_S2048x50x1_S2048x50x512_0_1_2),
    StableHlo.TRef.unary (.of main_call2_v0 : StableHlo.TRef sig ⟨S_, .f32⟩) (.of main_call2_v2 : StableHlo.TRef sig ⟨S2048x50x512, .f32⟩) (broadcastInDim S2048x50x512 ![] bcast_S_S2048x50x512),
    StableHlo.TRef.ternary (.of main_call2_v1 : StableHlo.TRef sig ⟨S2048x50x512, .i1⟩) (.of main_call2_v2 : StableHlo.TRef sig ⟨S2048x50x512, .f32⟩) (.of main_v27 : StableHlo.TRef sig ⟨S2048x50x512, .f32⟩) (.of main_v31 : StableHlo.TRef sig ⟨S2048x50x512, .f32⟩) select ]

/-- The weights spread over the row width, the product with the masked rows, and the sum over the history axis. -/
abbrev opsPool : List (HloOp τ sig (Elt F)) :=
  [ StableHlo.unary main_arg1 main_v32 (broadcastInDim S2048x50x1 ![0, 1] bcast_S2048x50_S2048x50x1_0_1 : (⟨S2048x50, .f32⟩ : BufTy).Contents (Elt F) → (⟨S2048x50x1, .f32⟩ : BufTy).Contents (Elt F)),
    StableHlo.unary main_v32 main_v33 (broadcastInDim S2048x50x512 ![0, 1, 2] bcast_S2048x50x1_S2048x50x512_0_1_2 : (⟨S2048x50x1, .f32⟩ : BufTy).Contents (Elt F) → (⟨S2048x50x512, .f32⟩ : BufTy).Contents (Elt F)),
    StableHlo.binary main_v31 main_v33 main_v34 (mulf : (⟨S2048x50x512, .f32⟩ : BufTy).Contents (Elt F) → (⟨S2048x50x512, .f32⟩ : BufTy).Contents (Elt F) → (⟨S2048x50x512, .f32⟩ : BufTy).Contents (Elt F)),
    StableHlo.nullary main_cst_7 (constant S_ .f32 0x00000000#32),
    StableHlo.binary main_v34 main_cst_7 main_v35 ((fun x v => Host.reduceAdd x v reducesTo_S2048x50x512_S2048x512_d1 h_S_) : (⟨S2048x50x512, .f32⟩ : BufTy).Contents (Elt F) → (⟨S_, .f32⟩ : BufTy).Contents (Elt F) → (⟨S2048x512, .f32⟩ : BufTy).Contents (Elt F)) ]

/-- The first layer: its indices wrapped when negative, its weights gathered from the table, and the product. -/
abbrev opsL1 : List (HloOp τ sig (Elt F)) :=
  [ StableHlo.nullary main_c_8 (constantI S_ 32 0#32),
    StableHlo.unary main_c_8 main_v36 (broadcastInDim S512x2048 ![] bcast_S_S512x2048 : (⟨S_, .i32⟩ : BufTy).Contents (Elt F) → (⟨S512x2048, .i32⟩ : BufTy).Contents (Elt F)),
    StableHlo.binary main_arg3 main_v36 main_v37 (cmpi .slt : (⟨S512x2048, .i32⟩ : BufTy).Contents (Elt F) → (⟨S512x2048, .i32⟩ : BufTy).Contents (Elt F) → (⟨S512x2048, .i1⟩ : BufTy).Contents (Elt F)),
    StableHlo.nullary main_c_9 (constantI S_ 32 2000000#32),
    StableHlo.unary main_c_9 main_v38 (broadcastInDim S512x2048 ![] bcast_S_S512x2048 : (⟨S_, .i32⟩ : BufTy).Contents (Elt F) → (⟨S512x2048, .i32⟩ : BufTy).Contents (Elt F)),
    StableHlo.binary main_arg3 main_v38 main_v39 (addi : (⟨S512x2048, .i32⟩ : BufTy).Contents (Elt F) → (⟨S512x2048, .i32⟩ : BufTy).Contents (Elt F) → (⟨S512x2048, .i32⟩ : BufTy).Contents (Elt F)),
    StableHlo.ternary main_v37 main_v39 main_arg3 main_v40 (select : (⟨S512x2048, .i1⟩ : BufTy).Contents (Elt F) → (⟨S512x2048, .i32⟩ : BufTy).Contents (Elt F) → (⟨S512x2048, .i32⟩ : BufTy).Contents (Elt F) → (⟨S512x2048, .i32⟩ : BufTy).Contents (Elt F)),
    StableHlo.unary main_v40 main_v41 (broadcastInDim S512x2048x1 ![0, 1] bcast_S512x2048_S512x2048x1_0_1 : (⟨S512x2048, .i32⟩ : BufTy).Contents (Elt F) → (⟨S512x2048x1, .i32⟩ : BufTy).Contents (Elt F)),
    StableHlo.binary main_arg2 main_v41 main_v42 ((fun x i => Host.gather gather_S2000000_S512x2048x1_S512x2048_n_0_n_n_0_2_1 x i) : (⟨S2000000, .f32⟩ : BufTy).Contents (Elt F) → (⟨S512x2048x1, .i32⟩ : BufTy).Contents (Elt F) → (⟨S512x2048, .f32⟩ : BufTy).Contents (Elt F)),
    StableHlo.binary main_v35 main_v42 main_v43 ((fun l r => Host.dotGeneral dot_S2048x512_S512x2048_S2048x2048_1_0_0_1_n_n none l r) : (⟨S2048x512, .f32⟩ : BufTy).Contents (Elt F) → (⟨S512x2048, .f32⟩ : BufTy).Contents (Elt F) → (⟨S2048x2048, .f32⟩ : BufTy).Contents (Elt F)) ]

/-- The second layer, likewise. -/
abbrev opsL2 : List (HloOp τ sig (Elt F)) :=
  [ StableHlo.nullary main_c_10 (constantI S_ 32 0#32),
    StableHlo.unary main_c_10 main_v44 (broadcastInDim S2048x2048 ![] bcast_S_S2048x2048 : (⟨S_, .i32⟩ : BufTy).Contents (Elt F) → (⟨S2048x2048, .i32⟩ : BufTy).Contents (Elt F)),
    StableHlo.binary main_arg4 main_v44 main_v45 (cmpi .slt : (⟨S2048x2048, .i32⟩ : BufTy).Contents (Elt F) → (⟨S2048x2048, .i32⟩ : BufTy).Contents (Elt F) → (⟨S2048x2048, .i1⟩ : BufTy).Contents (Elt F)),
    StableHlo.nullary main_c_11 (constantI S_ 32 2000000#32),
    StableHlo.unary main_c_11 main_v46 (broadcastInDim S2048x2048 ![] bcast_S_S2048x2048 : (⟨S_, .i32⟩ : BufTy).Contents (Elt F) → (⟨S2048x2048, .i32⟩ : BufTy).Contents (Elt F)),
    StableHlo.binary main_arg4 main_v46 main_v47 (addi : (⟨S2048x2048, .i32⟩ : BufTy).Contents (Elt F) → (⟨S2048x2048, .i32⟩ : BufTy).Contents (Elt F) → (⟨S2048x2048, .i32⟩ : BufTy).Contents (Elt F)),
    StableHlo.ternary main_v45 main_v47 main_arg4 main_v48 (select : (⟨S2048x2048, .i1⟩ : BufTy).Contents (Elt F) → (⟨S2048x2048, .i32⟩ : BufTy).Contents (Elt F) → (⟨S2048x2048, .i32⟩ : BufTy).Contents (Elt F) → (⟨S2048x2048, .i32⟩ : BufTy).Contents (Elt F)),
    StableHlo.unary main_v48 main_v49 (broadcastInDim S2048x2048x1 ![0, 1] bcast_S2048x2048_S2048x2048x1_0_1 : (⟨S2048x2048, .i32⟩ : BufTy).Contents (Elt F) → (⟨S2048x2048x1, .i32⟩ : BufTy).Contents (Elt F)),
    StableHlo.binary main_arg2 main_v49 main_v50 ((fun x i => Host.gather gather_S2000000_S2048x2048x1_S2048x2048_n_0_n_n_0_2_1 x i) : (⟨S2000000, .f32⟩ : BufTy).Contents (Elt F) → (⟨S2048x2048x1, .i32⟩ : BufTy).Contents (Elt F) → (⟨S2048x2048, .f32⟩ : BufTy).Contents (Elt F)),
    StableHlo.binary main_v43 main_v50 main_v51 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)) ]

/-- The third layer, likewise; its result is main_v59. -/
abbrev opsL3 : List (HloOp τ sig (Elt F)) :=
  [ StableHlo.nullary main_c_12 (constantI S_ 32 0#32),
    StableHlo.unary main_c_12 main_v52 (broadcastInDim S2048x1000 ![] bcast_S_S2048x1000 : (⟨S_, .i32⟩ : BufTy).Contents (Elt F) → (⟨S2048x1000, .i32⟩ : BufTy).Contents (Elt F)),
    StableHlo.binary main_arg5 main_v52 main_v53 (cmpi .slt : (⟨S2048x1000, .i32⟩ : BufTy).Contents (Elt F) → (⟨S2048x1000, .i32⟩ : BufTy).Contents (Elt F) → (⟨S2048x1000, .i1⟩ : BufTy).Contents (Elt F)),
    StableHlo.nullary main_c_13 (constantI S_ 32 2000000#32),
    StableHlo.unary main_c_13 main_v54 (broadcastInDim S2048x1000 ![] bcast_S_S2048x1000 : (⟨S_, .i32⟩ : BufTy).Contents (Elt F) → (⟨S2048x1000, .i32⟩ : BufTy).Contents (Elt F)),
    StableHlo.binary main_arg5 main_v54 main_v55 (addi : (⟨S2048x1000, .i32⟩ : BufTy).Contents (Elt F) → (⟨S2048x1000, .i32⟩ : BufTy).Contents (Elt F) → (⟨S2048x1000, .i32⟩ : BufTy).Contents (Elt F)),
    StableHlo.ternary main_v53 main_v55 main_arg5 main_v56 (select : (⟨S2048x1000, .i1⟩ : BufTy).Contents (Elt F) → (⟨S2048x1000, .i32⟩ : BufTy).Contents (Elt F) → (⟨S2048x1000, .i32⟩ : BufTy).Contents (Elt F) → (⟨S2048x1000, .i32⟩ : BufTy).Contents (Elt F)),
    StableHlo.unary main_v56 main_v57 (broadcastInDim S2048x1000x1 ![0, 1] bcast_S2048x1000_S2048x1000x1_0_1 : (⟨S2048x1000, .i32⟩ : BufTy).Contents (Elt F) → (⟨S2048x1000x1, .i32⟩ : BufTy).Contents (Elt F)),
    StableHlo.binary main_arg2 main_v57 main_v58 ((fun x i => Host.gather gather_S2000000_S2048x1000x1_S2048x1000_n_0_n_n_0_2_1 x i) : (⟨S2000000, .f32⟩ : BufTy).Contents (Elt F) → (⟨S2048x1000x1, .i32⟩ : BufTy).Contents (Elt F) → (⟨S2048x1000, .f32⟩ : BufTy).Contents (Elt F)),
    StableHlo.binary main_v51 main_v58 main_v59 ((fun l r => Host.dotGeneral dot_S2048x2048_S2048x1000_S2048x1000_1_0_0_1_n_n none l r) : (⟨S2048x2048, .f32⟩ : BufTy).Contents (Elt F) → (⟨S2048x1000, .f32⟩ : BufTy).Contents (Elt F) → (⟨S2048x1000, .f32⟩ : BufTy).Contents (Elt F)) ]

/-- The first layer's weights alone: the first nine operations of `opsL1`, ending in the gather (main_v42). -/
abbrev opsG1 : List (HloOp τ sig (Elt F)) :=
  [ StableHlo.nullary main_c_8 (constantI S_ 32 0#32),
    StableHlo.unary main_c_8 main_v36 (broadcastInDim S512x2048 ![] bcast_S_S512x2048 : (⟨S_, .i32⟩ : BufTy).Contents (Elt F) → (⟨S512x2048, .i32⟩ : BufTy).Contents (Elt F)),
    StableHlo.binary main_arg3 main_v36 main_v37 (cmpi .slt : (⟨S512x2048, .i32⟩ : BufTy).Contents (Elt F) → (⟨S512x2048, .i32⟩ : BufTy).Contents (Elt F) → (⟨S512x2048, .i1⟩ : BufTy).Contents (Elt F)),
    StableHlo.nullary main_c_9 (constantI S_ 32 2000000#32),
    StableHlo.unary main_c_9 main_v38 (broadcastInDim S512x2048 ![] bcast_S_S512x2048 : (⟨S_, .i32⟩ : BufTy).Contents (Elt F) → (⟨S512x2048, .i32⟩ : BufTy).Contents (Elt F)),
    StableHlo.binary main_arg3 main_v38 main_v39 (addi : (⟨S512x2048, .i32⟩ : BufTy).Contents (Elt F) → (⟨S512x2048, .i32⟩ : BufTy).Contents (Elt F) → (⟨S512x2048, .i32⟩ : BufTy).Contents (Elt F)),
    StableHlo.ternary main_v37 main_v39 main_arg3 main_v40 (select : (⟨S512x2048, .i1⟩ : BufTy).Contents (Elt F) → (⟨S512x2048, .i32⟩ : BufTy).Contents (Elt F) → (⟨S512x2048, .i32⟩ : BufTy).Contents (Elt F) → (⟨S512x2048, .i32⟩ : BufTy).Contents (Elt F)),
    StableHlo.unary main_v40 main_v41 (broadcastInDim S512x2048x1 ![0, 1] bcast_S512x2048_S512x2048x1_0_1 : (⟨S512x2048, .i32⟩ : BufTy).Contents (Elt F) → (⟨S512x2048x1, .i32⟩ : BufTy).Contents (Elt F)),
    StableHlo.binary main_arg2 main_v41 main_v42 ((fun x i => Host.gather gather_S2000000_S512x2048x1_S512x2048_n_0_n_n_0_2_1 x i) : (⟨S2000000, .f32⟩ : BufTy).Contents (Elt F) → (⟨S512x2048x1, .i32⟩ : BufTy).Contents (Elt F) → (⟨S512x2048, .f32⟩ : BufTy).Contents (Elt F)) ]

/-- The second layer's weights alone: the first nine operations of `opsL2`, ending in the gather (main_v50). -/
abbrev opsG2 : List (HloOp τ sig (Elt F)) :=
  [ StableHlo.nullary main_c_10 (constantI S_ 32 0#32),
    StableHlo.unary main_c_10 main_v44 (broadcastInDim S2048x2048 ![] bcast_S_S2048x2048 : (⟨S_, .i32⟩ : BufTy).Contents (Elt F) → (⟨S2048x2048, .i32⟩ : BufTy).Contents (Elt F)),
    StableHlo.binary main_arg4 main_v44 main_v45 (cmpi .slt : (⟨S2048x2048, .i32⟩ : BufTy).Contents (Elt F) → (⟨S2048x2048, .i32⟩ : BufTy).Contents (Elt F) → (⟨S2048x2048, .i1⟩ : BufTy).Contents (Elt F)),
    StableHlo.nullary main_c_11 (constantI S_ 32 2000000#32),
    StableHlo.unary main_c_11 main_v46 (broadcastInDim S2048x2048 ![] bcast_S_S2048x2048 : (⟨S_, .i32⟩ : BufTy).Contents (Elt F) → (⟨S2048x2048, .i32⟩ : BufTy).Contents (Elt F)),
    StableHlo.binary main_arg4 main_v46 main_v47 (addi : (⟨S2048x2048, .i32⟩ : BufTy).Contents (Elt F) → (⟨S2048x2048, .i32⟩ : BufTy).Contents (Elt F) → (⟨S2048x2048, .i32⟩ : BufTy).Contents (Elt F)),
    StableHlo.ternary main_v45 main_v47 main_arg4 main_v48 (select : (⟨S2048x2048, .i1⟩ : BufTy).Contents (Elt F) → (⟨S2048x2048, .i32⟩ : BufTy).Contents (Elt F) → (⟨S2048x2048, .i32⟩ : BufTy).Contents (Elt F) → (⟨S2048x2048, .i32⟩ : BufTy).Contents (Elt F)),
    StableHlo.unary main_v48 main_v49 (broadcastInDim S2048x2048x1 ![0, 1] bcast_S2048x2048_S2048x2048x1_0_1 : (⟨S2048x2048, .i32⟩ : BufTy).Contents (Elt F) → (⟨S2048x2048x1, .i32⟩ : BufTy).Contents (Elt F)),
    StableHlo.binary main_arg2 main_v49 main_v50 ((fun x i => Host.gather gather_S2000000_S2048x2048x1_S2048x2048_n_0_n_n_0_2_1 x i) : (⟨S2000000, .f32⟩ : BufTy).Contents (Elt F) → (⟨S2048x2048x1, .i32⟩ : BufTy).Contents (Elt F) → (⟨S2048x2048, .f32⟩ : BufTy).Contents (Elt F)) ]

/-- The third layer's weights alone: the first nine operations of `opsL3`, ending in the gather (main_v58). -/
abbrev opsG3 : List (HloOp τ sig (Elt F)) :=
  [ StableHlo.nullary main_c_12 (constantI S_ 32 0#32),
    StableHlo.unary main_c_12 main_v52 (broadcastInDim S2048x1000 ![] bcast_S_S2048x1000 : (⟨S_, .i32⟩ : BufTy).Contents (Elt F) → (⟨S2048x1000, .i32⟩ : BufTy).Contents (Elt F)),
    StableHlo.binary main_arg5 main_v52 main_v53 (cmpi .slt : (⟨S2048x1000, .i32⟩ : BufTy).Contents (Elt F) → (⟨S2048x1000, .i32⟩ : BufTy).Contents (Elt F) → (⟨S2048x1000, .i1⟩ : BufTy).Contents (Elt F)),
    StableHlo.nullary main_c_13 (constantI S_ 32 2000000#32),
    StableHlo.unary main_c_13 main_v54 (broadcastInDim S2048x1000 ![] bcast_S_S2048x1000 : (⟨S_, .i32⟩ : BufTy).Contents (Elt F) → (⟨S2048x1000, .i32⟩ : BufTy).Contents (Elt F)),
    StableHlo.binary main_arg5 main_v54 main_v55 (addi : (⟨S2048x1000, .i32⟩ : BufTy).Contents (Elt F) → (⟨S2048x1000, .i32⟩ : BufTy).Contents (Elt F) → (⟨S2048x1000, .i32⟩ : BufTy).Contents (Elt F)),
    StableHlo.ternary main_v53 main_v55 main_arg5 main_v56 (select : (⟨S2048x1000, .i1⟩ : BufTy).Contents (Elt F) → (⟨S2048x1000, .i32⟩ : BufTy).Contents (Elt F) → (⟨S2048x1000, .i32⟩ : BufTy).Contents (Elt F) → (⟨S2048x1000, .i32⟩ : BufTy).Contents (Elt F)),
    StableHlo.unary main_v56 main_v57 (broadcastInDim S2048x1000x1 ![0, 1] bcast_S2048x1000_S2048x1000x1_0_1 : (⟨S2048x1000, .i32⟩ : BufTy).Contents (Elt F) → (⟨S2048x1000x1, .i32⟩ : BufTy).Contents (Elt F)),
    StableHlo.binary main_arg2 main_v57 main_v58 ((fun x i => Host.gather gather_S2000000_S2048x1000x1_S2048x1000_n_0_n_n_0_2_1 x i) : (⟨S2000000, .f32⟩ : BufTy).Contents (Elt F) → (⟨S2048x1000x1, .i32⟩ : BufTy).Contents (Elt F) → (⟨S2048x1000, .f32⟩ : BufTy).Contents (Elt F)) ]

/-- The ten lists, in the order the program runs them. -/
abbrev lines : List (List (HloOp τ sig (Elt F))) :=
  [opsA0, opsA1, opsA2, opsA3, opsA4, opsA5, opsPool, opsL1, opsL2, opsL3]

/-- All 119 operations, in order. -/
abbrev ops : List (HloOp τ sig (Elt F)) := lines.flatten

theorem opsA0_sub : (opsA0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub ..⟩
theorem opsA0_fresh : (opsA0 : List (HloOp τ sig (Elt F))).Forall fun op => op.fresh = ∅ :=
  ⟨rfl, rfl, rfl, rfl, rfl, rfl, rfl, rfl, rfl, rfl, rfl, rfl, rfl, rfl, rfl, rfl⟩

theorem opsA1_sub : (opsA1 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem opsA2_sub : (opsA2 : List (HloOp τ sig (Elt F))).Forall fun op => op.bufs ⊆ tcRefs τ sig :=
  nullary_bufs_sub ..
theorem opsA2_fresh : (opsA2 : List (HloOp τ sig (Elt F))).Forall fun op => op.fresh = ∅ :=
  rfl

theorem opsA3_sub : (opsA3 : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsA3_fresh : (opsA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem opsA4_sub : (opsA4 : List (HloOp τ sig (Elt F))).Forall fun op => op.bufs ⊆ tcRefs τ sig :=
  ⟨unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., unary_bufs_sub .., nullary_bufs_sub ..⟩
theorem opsA4_fresh : (opsA4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem opsA5_sub : (opsA5 : List (HloOp τ sig (Elt F))).Forall fun op => op.bufs ⊆ tcRefs τ sig :=
  ⟨unary_bufs_sub .., unary_bufs_sub .., unary_bufs_sub .., ternary_bufs_sub ..⟩
theorem opsA5_fresh : (opsA5 : List (HloOp τ sig (Elt F))).Forall fun op => op.fresh = ∅ :=
  ⟨rfl, rfl, rfl, rfl⟩

theorem opsPool_sub : (opsPool : List (HloOp τ sig (Elt F))).Forall fun op => op.bufs ⊆ tcRefs τ sig :=
  ⟨unary_bufs_sub .., unary_bufs_sub .., binary_bufs_sub .., nullary_bufs_sub .., binary_bufs_sub ..⟩
theorem opsPool_fresh : (opsPool : List (HloOp τ sig (Elt F))).Forall fun op => op.fresh = ∅ :=
  ⟨rfl, rfl, rfl, rfl, rfl⟩

theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem opsL1_fresh : (opsL1 : List (HloOp τ sig (Elt F))).Forall fun op => op.fresh = ∅ :=
  ⟨rfl, rfl, rfl, rfl, rfl, rfl, rfl, rfl, rfl, rfl⟩

theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem opsL2_fresh : (opsL2 : List (HloOp τ sig (Elt F))).Forall fun op => op.fresh = ∅ :=
  ⟨rfl, rfl, rfl, rfl, rfl, rfl, rfl, rfl, rfl, rfl⟩

theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem opsL3_fresh : (opsL3 : List (HloOp τ sig (Elt F))).Forall fun op => op.fresh = ∅ :=
  ⟨rfl, rfl, rfl, rfl, rfl, rfl, rfl, rfl, rfl, rfl⟩

/-- Every operation touches TensorCore references only. -/
theorem ops_sub : (ops : List (HloOp τ sig (Elt F))).Forall fun op => op.bufs ⊆ tcRefs τ sig :=
  Cert.StraightLine.forall_flatten lines ⟨opsA0_sub, opsA1_sub, opsA2_sub, opsA3_sub, opsA4_sub, opsA5_sub, opsPool_sub, opsL1_sub, opsL2_sub, opsL3_sub⟩

/-- Every operation determines its results. -/
theorem ops_fresh : ∀ op ∈ (ops : List (HloOp τ sig (Elt F))), op.fresh = ∅ :=
  List.forall_iff_forall_mem.mp (Cert.StraightLine.forall_flatten lines ⟨opsA0_fresh, opsA1_fresh, opsA2_fresh, opsA3_fresh, opsA4_fresh, opsA5_fresh, opsPool_fresh, opsL1_fresh, opsL2_fresh, opsL3_fresh⟩)

-- one hundred and nineteen binds re-associated: the rewriting recurses once per statement
set_option maxRecDepth 16384 in
set_option maxHeartbeats 4000000 in
/-- The entry function is that straight line: the functions' definitions unfolded at their calls, both sides are one
    chain of steps once sequencing is re-associated. -/
theorem main_eq (c : Dev nD) : main (F := F) c = seq ops := by
  simp only [main, main_part0, main_part1, fn_remainder.body, fn_where.body, fn_where_0.body,
    List.flatten_cons, List.flatten_nil, List.append_nil, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the entry
    function terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefOps

end
-- ==== Proof.EmbBridge.lean ====
/-
  THE MASKED EMBEDDED ROWS ARE THE SAME ARRAY IN BOTH PROGRAMS.

  Both programs compute the embedded rows by the same host operations: from the history indices an integer position
  (a multiply-add hash reduced by two remainders, sixteen chunk starts per row, thirty-two consecutive positions per
  chunk, negative positions wrapped), the table gathered at those positions and reshaped to rows of width 512, and rows
  whose history index is zero replaced by zero.  They differ in three spellings only: the kernel program first rounds the
  table to a narrower float format, which at the ideal values is the identity; its zero is the zero of that format, the
  reference's the zero of the wider one, both the real number 0; and the two masking functions list their broadcasts in a
  different order.  So with the same history indices and the same table the two folds of host operations leave the same
  array: the operations' results are unfolded on both sides, the two zeros are named, and what is left is one term twice.
-/
import proofs.«166119_j5952824673078_2_alg».proof.Proof.Gen.KernelIdeal.Frame
import proofs.«166119_j5952824673078_2_alg».proof.Proof.RefOps
import proofs.«166119_j5952824673078_2_alg».proof.Proof.LibTypedRef
import Idealize.ShloMosaic.Lib.StableHlo.Run
import Idealize.ShloMosaic.Lib.IdealHost
import Idealize.ShloMosaic.PureOps.Ideal.Laws

set_option maxRecDepth 16384

noncomputable section

namespace Cert.Bridge

open Idealize.ShloMosaic Idealize.ShloMosaic.TcCoe Idealize.ShloMosaic.StableHlo Idealize.SL.Sem

/-- The kernel program's zero, of the narrow format, is the number zero at every index. -/
theorem zero_narrow : constant (F := Ideal) Cert.KernelIdeal.S_ .bf16 0x0000#16 = fun _ => (0 : EReal) :=
  funext fun _ => Ideal.ofBits_zero_bf16

/-- The reference's zero, of the wide format, is the number zero at every index. -/
theorem zero_wide : constant (F := Ideal) Cert.ReferenceIdeal.S_ .f32 0x00000000#32 = fun _ => (0 : EReal) :=
  funext fun _ => Ideal.ofBits_zero_f32

set_option maxHeartbeats 8000000 in
/-- From contents that agree on the history indices `x` and the table `T`, the kernel program's six stretches of host
    operations before its first region leave in the masked-rows buffer what the reference's six lists leave in its own. -/
theorem emb_bridge (WK : Valuation Cert.KernelIdeal.τ Cert.KernelIdeal.sig (Elt Ideal))
    (WR : Valuation Cert.ReferenceIdeal.τ Cert.ReferenceIdeal.sig (Elt Ideal))
    (x : (⟨Cert.KernelIdeal.S2048x50, .i32⟩ : BufTy).Contents (Elt Ideal)) (T : FVec Ideal Cert.KernelIdeal.S2000000 .f32)
    (hK0 : WK (Proc.devRef .tc Cert.KernelIdeal.main_arg0) = x) (hK2 : WK (Proc.devRef .tc Cert.KernelIdeal.main_arg2) = T)
    (hR0 : WR (Proc.devRef .tc Cert.ReferenceIdeal.main_arg0) = x) (hR2 : WR (Proc.devRef .tc Cert.ReferenceIdeal.main_arg2) = T) :
    (StableHlo.after Cert.KernelIdeal.Gen.hostOps0_5 (StableHlo.after Cert.KernelIdeal.Gen.hostOps0_4
      (StableHlo.after Cert.KernelIdeal.Gen.hostOps0_3 (StableHlo.after Cert.KernelIdeal.Gen.hostOps0_2
      (StableHlo.after Cert.KernelIdeal.Gen.hostOps0_1 (StableHlo.after Cert.KernelIdeal.Gen.hostOps0 WK)))))
        (Proc.devRef .tc Cert.KernelIdeal.main_v32) : Cert.KernelIdeal.S2048x50x512.Idx → EReal)
    = StableHlo.after Cert.ReferenceIdeal.RefOps.opsA5 (StableHlo.after Cert.ReferenceIdeal.RefOps.opsA4
      (StableHlo.after Cert.ReferenceIdeal.RefOps.opsA3 (StableHlo.after Cert.ReferenceIdeal.RefOps.opsA2
      (StableHlo.after Cert.ReferenceIdeal.RefOps.opsA1 (StableHlo.after Cert.ReferenceIdeal.RefOps.opsA0 WR)))))
        (Proc.devRef .tc Cert.ReferenceIdeal.main_v31) := by
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.ReferenceIdeal.RefOps.opsA0, Cert.ReferenceIdeal.RefOps.opsA1, Cert.ReferenceIdeal.RefOps.opsA2,
    Cert.ReferenceIdeal.RefOps.opsA3, Cert.ReferenceIdeal.RefOps.opsA4, Cert.ReferenceIdeal.RefOps.opsA5]
  after_results_simp
  simp only [Cert.TypedRef.ofBuf_toBuf, hK0, hK2, hR0, hR2, zero_narrow, zero_wide]
  rfl

end Cert.Bridge

end
-- ==== Proof.GatherBridge.lean ====
/-
  THE LAYERS' WEIGHTS ARE THE SAME ARRAYS IN THE TWO PROGRAMS.

  Each of the three layers takes its weights out of one long table by an array of indices: an index below zero is moved up by
  the table's length, and entry `(k, c)` of the weights is the table at the index found at `(k, c)`.  Both programs compute
  this with the same chain of host operations — a comparison with zero, a sum with the length, a selection, a trailing unit
  axis, a gather — the kernel's over its narrowed copy of the table and the reference's over the table itself.  On extended
  reals the narrowed copy is the table, so from equal tables and equal indices the two programs compute the same weights.
  The kernel then pads the third layer's weights with extra columns holding a converted zero; its padded array is that
  padding of the reference's third weights.

  The statements are over any two valuations that agree on the table and on the layer's indices; each side is the fold
  of its program's operations over its valuation, read at the buffer the gather writes.
-/
import proofs.«166119_j5952824673078_2_alg».proof.Proof.Gen.KernelIdeal.Frame
import proofs.«166119_j5952824673078_2_alg».proof.Proof.RefOps
import proofs.«166119_j5952824673078_2_alg».proof.Proof.LibTypedRef
import proofs.«166119_j5952824673078_2_alg».proof.Proof.LibFormats
import Idealize.ShloMosaic.Lib.StableHlo.Run
import Idealize.ShloMosaic.PureOps.Ideal

set_option maxRecDepth 16384

noncomputable section

namespace Cert.Bridge

open Idealize.ShloMosaic Idealize.ShloMosaic.TcCoe Idealize.ShloMosaic.StableHlo Idealize.SL.Sem

set_option maxHeartbeats 8000000 in
/-- The first layer's weights. -/
theorem gather1_bridge (WK : Valuation Cert.KernelIdeal.τ Cert.KernelIdeal.sig (Elt Ideal))
    (WR : Valuation Cert.ReferenceIdeal.τ Cert.ReferenceIdeal.sig (Elt Ideal))
    (T : Cert.KernelIdeal.S2000000.Idx → EReal) (i : (⟨Cert.KernelIdeal.S512x2048, .i32⟩ : BufTy).Contents (Elt Ideal))
    (hK0 : (WK (Proc.devRef .tc Cert.KernelIdeal.main_v0) : Cert.KernelIdeal.S2000000.Idx → EReal) = T)
    (hK3 : WK (Proc.devRef .tc Cert.KernelIdeal.main_arg3) = i)
    (hR2 : (WR (Proc.devRef .tc Cert.ReferenceIdeal.main_arg2) : Cert.KernelIdeal.S2000000.Idx → EReal) = T)
    (hR3 : WR (Proc.devRef .tc Cert.ReferenceIdeal.main_arg3) = i) :
    (StableHlo.after Cert.KernelIdeal.Gen.hostOps1 WK (Proc.devRef .tc Cert.KernelIdeal.main_v40)
        : Cert.KernelIdeal.S512x2048.Idx → EReal)
      = StableHlo.after Cert.ReferenceIdeal.RefOps.opsG1 WR (Proc.devRef .tc Cert.ReferenceIdeal.main_v42) := by
  simp only [Cert.KernelIdeal.Gen.hostOps1, Cert.ReferenceIdeal.RefOps.opsG1]
  after_results_simp
  rw [hK3, hR3, hK0, hR2]
  rfl

set_option maxHeartbeats 8000000 in
/-- The second layer's weights. -/
theorem gather2_bridge (WK : Valuation Cert.KernelIdeal.τ Cert.KernelIdeal.sig (Elt Ideal))
    (WR : Valuation Cert.ReferenceIdeal.τ Cert.ReferenceIdeal.sig (Elt Ideal))
    (T : Cert.KernelIdeal.S2000000.Idx → EReal) (i : (⟨Cert.KernelIdeal.S2048x2048, .i32⟩ : BufTy).Contents (Elt Ideal))
    (hK0 : (WK (Proc.devRef .tc Cert.KernelIdeal.main_v0) : Cert.KernelIdeal.S2000000.Idx → EReal) = T)
    (hK4 : WK (Proc.devRef .tc Cert.KernelIdeal.main_arg4) = i)
    (hR2 : (WR (Proc.devRef .tc Cert.ReferenceIdeal.main_arg2) : Cert.KernelIdeal.S2000000.Idx → EReal) = T)
    (hR4 : WR (Proc.devRef .tc Cert.ReferenceIdeal.main_arg4) = i) :
    (StableHlo.after Cert.KernelIdeal.Gen.hostOps1 WK (Proc.devRef .tc Cert.KernelIdeal.main_v47)
        : Cert.KernelIdeal.S2048x2048.Idx → EReal)
      = StableHlo.after Cert.ReferenceIdeal.RefOps.opsG2 WR (Proc.devRef .tc Cert.ReferenceIdeal.main_v50) := by
  simp only [Cert.KernelIdeal.Gen.hostOps1, Cert.ReferenceIdeal.RefOps.opsG2]
  after_results_simp
  rw [hK4, hR4, hK0, hR2]
  rfl

/-- The value the kernel pads the third layer's weights with: zero converted to the short float format. -/
def padValue : Cert.KernelIdeal.S_.Idx → EReal := sitofp (F := Ideal) .bf16 (constantI Cert.KernelIdeal.S_ 32 0#32)

set_option maxHeartbeats 8000000 in
/-- The third layer's weights: the kernel's padded array is the padding of the reference's weights. -/
theorem gather3_bridge (WK : Valuation Cert.KernelIdeal.τ Cert.KernelIdeal.sig (Elt Ideal))
    (WR : Valuation Cert.ReferenceIdeal.τ Cert.ReferenceIdeal.sig (Elt Ideal))
    (T : Cert.KernelIdeal.S2000000.Idx → EReal) (i : (⟨Cert.KernelIdeal.S2048x1000, .i32⟩ : BufTy).Contents (Elt Ideal))
    (hK0 : (WK (Proc.devRef .tc Cert.KernelIdeal.main_v0) : Cert.KernelIdeal.S2000000.Idx → EReal) = T)
    (hK5 : WK (Proc.devRef .tc Cert.KernelIdeal.main_arg5) = i)
    (hR2 : (WR (Proc.devRef .tc Cert.ReferenceIdeal.main_arg2) : Cert.KernelIdeal.S2000000.Idx → EReal) = T)
    (hR5 : WR (Proc.devRef .tc Cert.ReferenceIdeal.main_arg5) = i) :
    (StableHlo.after Cert.KernelIdeal.Gen.hostOps1_1 (StableHlo.after Cert.KernelIdeal.Gen.hostOps1 WK)
        (Proc.devRef .tc Cert.KernelIdeal.main_v55) : Cert.KernelIdeal.S2048x1024.Idx → EReal)
      = pad Cert.KernelIdeal.S2048x1024 ![0, 0] ![0, 24] ![0, 0]
          (StableHlo.after Cert.ReferenceIdeal.RefOps.opsG3 WR (Proc.devRef .tc Cert.ReferenceIdeal.main_v58)
            : Cert.KernelIdeal.S2048x1000.Idx → EReal)
          padValue Cert.KernelIdeal.Gen.pads_S2048x1000_S2048x1024_000_0240 Cert.KernelIdeal.Gen.h_S_ := by
  simp only [Cert.KernelIdeal.Gen.hostOps1, Cert.KernelIdeal.Gen.hostOps1_1, Cert.ReferenceIdeal.RefOps.opsG3]
  after_results_simp
  simp only [Cert.TypedRef.ofBuf_toBuf]
  rw [hK5, hR5, hK0, hR2]
  rfl

end Cert.Bridge

end
-- ==== Proof.LibPadSlice.lean ====
/-
  A MATRIX PRODUCT WHOSE RIGHT FACTOR IS PADDED WITH EXTRA COLUMNS, cut back to the original columns.

  Let `w` be a `[K, N]` array padded on the right of its column axis to `N' ≥ N` columns with some value `z`, and `a` an
  `[R, K]` array.  Column `c < N` of the product `a · pad w` is `∑ k, a (p, k) · (pad w) (k, c)`, and `(pad w) (k, c) = w (k, c)`
  because `c` lies inside the original; so the first `N` columns of `a · pad w` are `a · w`.  The padded columns are never read,
  so `z` and the amount of padding are arbitrary.  All extents are parameters; the sums are compared term by term.
-/
import proofs.«166119_j5952824673078_2_alg».proof.Proof.LibRegionRows
import Idealize.ShloMosaic.Lib.KernelVsHost
import Idealize.ShloMosaic.Lib.Pipeline.Value

noncomputable section

open scoped BigOperators

namespace Cert.PadSlice

open Idealize.ShloMosaic Idealize.ShloMosaic.ValueIdx
open Cert.KernelIdeal.RegionValue (prodArr prodArr_apply)

variable {α : Type}

/-- An array padded only after its last column, read at a column of the original, is the original there. -/
theorem pad_cols_apply {K N N' : ℕ} (hi : Fin 2 → ℕ) (w : (⟨2, ![K, N]⟩ : Shape).Idx → α) {u : Shape} (z : u.Idx → α)
    (hp : (⟨2, ![K, N]⟩ : Shape).Pads ![0, 0] hi ![0, 0] ⟨2, ![K, N']⟩) (hu : 0 < u.numel)
    (k : Fin K) (c : Fin N) (c' : Fin N') (hc : c'.val = c.val) :
    pad ⟨2, ![K, N']⟩ ![0, 0] hi ![0, 0] w z hp hu (ix2 k c') = w (ix2 k c) :=
  pad_apply_of_inside _ _ _ w z hp hu _ _ fun ax => by
    match ax with
    | ⟨0, _⟩ => show k.val = 0 + k.val * (0 + 1); omega
    | ⟨1, _⟩ => show c'.val = 0 + c.val * (0 + 1); omega

/-- The leading `N` columns of an `[R, N']` array, read at an index. -/
theorem slice_cols_apply {R N N' : ℕ} (x : (⟨2, ![R, N']⟩ : Shape).Idx → α)
    (hs : (⟨2, ![R, N']⟩ : Shape).Slices ![0, 0] ⟨2, ![R, N]⟩) (p : Fin R) (c : Fin N) (c' : Fin N') (hc : c'.val = c.val) :
    extractStridedSlice ⟨2, ![R, N]⟩ ![0, 0] x hs (ix2 p c) = x (ix2 p c') :=
  extractStridedSlice_apply _ x hs _ _ fun ax => by
    match ax with
    | ⟨0, _⟩ => show p.val = 0 + p.val; omega
    | ⟨1, _⟩ => show c'.val = 0 + c.val; omega

/-- The first `N` columns of the product with the padded factor are the product with the factor itself. -/
theorem prod_pad_slice {R K N N' : ℕ} (hi : Fin 2 → ℕ) (a : (⟨2, ![R, K]⟩ : Shape).Idx → EReal)
    (w : (⟨2, ![K, N]⟩ : Shape).Idx → EReal) {u : Shape} (z : u.Idx → EReal)
    (hp : (⟨2, ![K, N]⟩ : Shape).Pads ![0, 0] hi ![0, 0] ⟨2, ![K, N']⟩) (hu : 0 < u.numel)
    (hs : (⟨2, ![R, N']⟩ : Shape).Slices ![0, 0] ⟨2, ![R, N]⟩) :
    extractStridedSlice ⟨2, ![R, N]⟩ ![0, 0] (prodArr a (pad ⟨2, ![K, N']⟩ ![0, 0] hi ![0, 0] w z hp hu)) hs
      = prodArr a w := by
  have hN : 0 + N ≤ N' := hs.2 (1 : Fin 2)
  funext i
  obtain ⟨p, c, rfl⟩ : ∃ (p : Fin R) (c : Fin N), i = ix2 p c := ⟨i 0, i 1, eq_ix2 i⟩
  rw [slice_cols_apply _ hs p c ⟨c.val, by have := c.isLt; omega⟩ rfl, prodArr_apply, prodArr_apply]
  exact Finset.sum_congr rfl fun k _ => by rw [pad_cols_apply hi w z hp hu k c _ rfl]

end Cert.PadSlice

end
-- ==== Proof.RefValue.lean ====
/-
  THE REFERENCE PROGRAM'S RESULT AS THE NETWORK OF ITS ARRAYS, at the ideal values.

  Read after the masked embedded rows are in place, the reference spreads the weights over the row width, multiplies, and
  sums over the history axis from the zero word: entry `(b, d)` of the result is `∑ l, e (b, l, d) · w (b, l)`, the pooled
  rows.  Each layer is then one host product of the rows so far with that layer's gathered weights.  The masked rows and
  the three gathered weight arrays are not opened here: they are named as what the program's own operations leave in
  their buffers.
-/
import proofs.«166119_j5952824673078_2_alg».proof.Proof.RefOps
import proofs.«166119_j5952824673078_2_alg».proof.Proof.Spec
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.RefOps
open Idealize.ShloMosaic Idealize.ShloMosaic.TcCoe Idealize.SL.Sem Idealize.ShloMosaic.StableHlo Idealize.ShloMosaic.ValueIdx
open Cert.KernelIdeal.RegionValue (prodArr prodArr_apply)

/-! ## The pooling, read at an entry -/

/-- The weights spread first over a trailing unit axis and then over the row width read, at `(b, l, d)`, the weight of
    row `(b, l)`. -/
theorem spread_apply (w : FVec Ideal S2048x50 .f32) (b : Fin 2048) (l : Fin 50) (d : Fin 512) :
    broadcastInDim S2048x50x512 ![0, 1, 2] bcast_S2048x50x1_S2048x50x512_0_1_2
        (broadcastInDim S2048x50x1 ![0, 1] bcast_S2048x50_S2048x50x1_0_1 w) (ix3 b l d) = w (ix2 b l) := by
  rw [broadcastInDim_apply _ _ _ _ (ix3 b l (0 : Fin 1)) (fun a => by fin_cases a <;> rfl),
    broadcastInDim_apply _ _ _ _ (ix2 b l) (fun a => by fin_cases a <;> rfl)]

/-- The sum over the history axis from the zero word of the rows times the spread weights is the weighted pooling. -/
theorem pool_eq (e : FVec Ideal S2048x50x512 .f32) (w : FVec Ideal S2048x50 .f32) :
    Host.reduceAdd (mulf e (broadcastInDim S2048x50x512 ![0, 1, 2] bcast_S2048x50x1_S2048x50x512_0_1_2
        (broadcastInDim S2048x50x1 ![0, 1] bcast_S2048x50_S2048x50x1_0_1 w)))
      (constant (F := Ideal) S_ .f32 0x00000000#32) reducesTo_S2048x50x512_S2048x512_d1 h_S_
      = Cert.Spec.poolArr e w := by
  funext j
  obtain ⟨b, d, rfl⟩ : ∃ (b : Fin 2048) (d : Fin 512), j = ix2 b d := ⟨j 0, j 1, eq_ix2 j⟩
  have hR : S2048x50x512.Reduces [1] S2048x512 := by decide
  rw [hostReduceAdd_apply, Ideal.hostReduceAdd_single _ hR, constant_apply, Ideal.ofBits_zero_f32, zero_add,
    Cert.Spec.poolArr_apply]
  have key : ∀ l : Fin 50, mulf e (broadcastInDim S2048x50x512 ![0, 1, 2] bcast_S2048x50x1_S2048x50x512_0_1_2
        (broadcastInDim S2048x50x1 ![0, 1] bcast_S2048x50_S2048x50x1_0_1 w)) (hR.lift (ix2 b d) l)
      = e (ix3 b l d) * w (ix2 b l) := fun l => by
    have hl : hR.lift (ix2 b d) l = ix3 b l d := funext fun a => Fin.ext (by fin_cases a <;> rfl)
    rw [hl, mulf_apply, spread_apply]
  exact Finset.sum_congr rfl fun l _ => key l

/-! ## The three layers -/

/-- After the pooling, three host products: the network of the arrays. -/
theorem net_eq (e : FVec Ideal S2048x50x512 .f32) (w : FVec Ideal S2048x50 .f32) (g₁ : FVec Ideal S512x2048 .f32)
    (g₂ : FVec Ideal S2048x2048 .f32) (g₃ : FVec Ideal S2048x1000 .f32) :
    Host.dotGeneral dot_S2048x2048_S2048x1000_S2048x1000_1_0_0_1_n_n none
        (Host.dotGeneral dot_S2048x2048_S2048x2048_S2048x2048_1_0_0_1_n_n none
          (Host.dotGeneral dot_S2048x512_S512x2048_S2048x2048_1_0_0_1_n_n none
            (Host.reduceAdd (mulf e (broadcastInDim S2048x50x512 ![0, 1, 2] bcast_S2048x50x1_S2048x50x512_0_1_2
                (broadcastInDim S2048x50x1 ![0, 1] bcast_S2048x50_S2048x50x1_0_1 w)))
              (constant (F := Ideal) S_ .f32 0x00000000#32) reducesTo_S2048x50x512_S2048x512_d1 h_S_) g₁) g₂) g₃
      = Cert.Spec.netArr e w g₁ g₂ g₃ := by
  have d₁ : dot_S2048x512_S512x2048_S2048x2048_1_0_0_1_n_n = DotDims.plain 2048 512 2048 := rfl
  have d₂ : dot_S2048x2048_S2048x2048_S2048x2048_1_0_0_1_n_n = DotDims.plain 2048 2048 2048 := rfl
  have d₃ : dot_S2048x2048_S2048x1000_S2048x1000_1_0_0_1_n_n = DotDims.plain 2048 2048 1000 := rfl
  rw [pool_eq, d₁, d₂, d₃, Cert.ProdRows.hprod, Cert.ProdRows.hprod, Cert.ProdRows.hprod]
  rfl

/-! ## What the program leaves in four buffers, named -/

/-- The masked embedded rows, as the program's own operations compute them from the contents at launch: what the six
    lists `opsA0 … opsA5` (the index chain, both remainders, the gather, the reshape, the mask) leave in main_v31. -/
def embR (W : Valuation τ sig (Elt Ideal)) : FVec Ideal S2048x50x512 .f32 :=
  after opsA5 (after opsA4 (after opsA3 (after opsA2 (after opsA1 (after opsA0 W))))) (main_v31 : DevRef τ sig)

/-- The first layer's weights: what the nine operations `opsG1` (the indices wrapped when negative, the gather from the
    table) leave in main_v42, from the contents at launch. -/
def gatR1 (W : Valuation τ sig (Elt Ideal)) : FVec Ideal S512x2048 .f32 := after opsG1 W (main_v42 : DevRef τ sig)
/-- The second layer's weights, likewise (main_v50). -/
def gatR2 (W : Valuation τ sig (Elt Ideal)) : FVec Ideal S2048x2048 .f32 := after opsG2 W (main_v50 : DevRef τ sig)
/-- The third layer's weights, likewise (main_v58). -/
def gatR3 (W : Valuation τ sig (Elt Ideal)) : FVec Ideal S2048x1000 .f32 := after opsG3 W (main_v58 : DevRef τ sig)

/-! ## The fold at the result and at the arguments -/

/-- The operations that compute the masked rows write none of the weights, the table or the layers' indices. -/
theorem head_arg1 (W : Valuation τ sig (Elt Ideal)) : after opsA5 (after opsA4 (after opsA3 (after opsA2 (after opsA1 (after opsA0 W))))) (main_arg1 : DevRef τ sig) = W (main_arg1 : DevRef τ sig) := by
  after_results_simp
theorem head_arg2 (W : Valuation τ sig (Elt Ideal)) : after opsA5 (after opsA4 (after opsA3 (after opsA2 (after opsA1 (after opsA0 W))))) (main_arg2 : DevRef τ sig) = W (main_arg2 : DevRef τ sig) := by
  after_results_simp
theorem head_arg3 (W : Valuation τ sig (Elt Ideal)) : after opsA5 (after opsA4 (after opsA3 (after opsA2 (after opsA1 (after opsA0 W))))) (main_arg3 : DevRef τ sig) = W (main_arg3 : DevRef τ sig) := by
  after_results_simp
theorem head_arg4 (W : Valuation τ sig (Elt Ideal)) : after opsA5 (after opsA4 (after opsA3 (after opsA2 (after opsA1 (after opsA0 W))))) (main_arg4 : DevRef τ sig) = W (main_arg4 : DevRef τ sig) := by
  after_results_simp
theorem head_arg5 (W : Valuation τ sig (Elt Ideal)) : after opsA5 (after opsA4 (after opsA3 (after opsA2 (after opsA1 (after opsA0 W))))) (main_arg5 : DevRef τ sig) = W (main_arg5 : DevRef τ sig) := by
  after_results_simp

/-- The whole line is the head that computes the masked rows, then the pooling, then the three layers. -/
theorem after_ops (W : Valuation τ sig (Elt Ideal)) :
    after ops W = after opsL3 (after opsL2 (after opsL1 (after opsPool (after opsA5 (after opsA4 (after opsA3 (after opsA2 (after opsA1 (after opsA0 W))))))))) := by
  simp only [ops, lines, List.flatten_cons, List.flatten_nil, List.append_nil, Cert.StraightLine.after_append]

/-- The result buffer after the whole line: the network of the masked rows, the weights and the three gathered arrays. -/
theorem value (W : Valuation τ sig (Elt Ideal)) :
    after ops W (main_v59 : DevRef τ sig)
      = Cert.Spec.netArr (embR W) (W (main_arg1 : DevRef τ sig)) (gatR1 W) (gatR2 W) (gatR3 W) := by
  rw [after_ops]
  unfold embR gatR1 gatR2 gatR3
  have f1 := head_arg1 W; have f2 := head_arg2 W; have f3 := head_arg3 W; have f4 := head_arg4 W; have f5 := head_arg5 W
  generalize after opsA5 (after opsA4 (after opsA3 (after opsA2 (after opsA1 (after opsA0 W))))) = W₁ at f1 f2 f3 f4 f5 ⊢
  after_results_simp
  rw [f1, f2, f3, f4, f5]
  exact net_eq _ _ _ _ _

theorem arg0_eq (W : Valuation τ sig (Elt Ideal)) : after ops W (main_arg0 : DevRef τ sig) = W (main_arg0 : DevRef τ sig) := by
  rw [after_ops]; after_results_simp
theorem arg1_eq (W : Valuation τ sig (Elt Ideal)) : after ops W (main_arg1 : DevRef τ sig) = W (main_arg1 : DevRef τ sig) := by
  rw [after_ops]; after_results_simp
theorem arg2_eq (W : Valuation τ sig (Elt Ideal)) : after ops W (main_arg2 : DevRef τ sig) = W (main_arg2 : DevRef τ sig) := by
  rw [after_ops]; after_results_simp
theorem arg3_eq (W : Valuation τ sig (Elt Ideal)) : after ops W (main_arg3 : DevRef τ sig) = W (main_arg3 : DevRef τ sig) := by
  rw [after_ops]; after_results_simp
theorem arg4_eq (W : Valuation τ sig (Elt Ideal)) : after ops W (main_arg4 : DevRef τ sig) = W (main_arg4 : DevRef τ sig) := by
  rw [after_ops]; after_results_simp
theorem arg5_eq (W : Valuation τ sig (Elt Ideal)) : after ops W (main_arg5 : DevRef τ sig) = W (main_arg5 : DevRef τ sig) := by
  rw [after_ops]; after_results_simp

/-! ## The run -/

/-- On every device, from any memory with zero counters: every weakly fair execution of the reference terminates with the
    result buffer at the network of the masked rows, the weights and the three gathered arrays, each read off the
    contents at launch, and the six arguments unchanged. -/
theorem run (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v59)
          = Cert.Spec.netArr (embR (launchContents m' c)) (m' ((c.tc : Thread nD τ).loc main_arg1))
              (gatR1 (launchContents m' c)) (gatR2 (launchContents m' c)) (gatR3 (launchContents m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ h c => ⟨(h c main_v59).trans (value _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_after m' g')

end Cert.ReferenceIdeal.RefValue

end
-- ==== Proof.KValue.lean ====
/-
  THE IDEALIZED KERNEL PROGRAM'S RESULT IS THE NETWORK OF THE REFERENCE'S ARRAYS.

  Read back through its segments, the kernel program's result is the leading 1000 columns of the three layers applied to
  the pooled rows, with the third weight array padded on the right to 1024 columns.  The padded columns of a product are
  cut away again by the slice, so the result is the three layers with the unpadded array.  The pooled rows are the
  pooling of the masked embedded rows, which are the reference's; the three weight arrays are the table gathered at the
  wrapped layer indices, the reference's again: both programs read the same launch contents.  Hence the result is the
  specification's network of the reference's own arrays.
-/
import proofs.«166119_j5952824673078_2_alg».proof.Proof.KTail
import proofs.«166119_j5952824673078_2_alg».proof.Proof.KReads
import proofs.«166119_j5952824673078_2_alg».proof.Proof.EmbBridge
import proofs.«166119_j5952824673078_2_alg».proof.Proof.GatherBridge
import proofs.«166119_j5952824673078_2_alg».proof.Proof.LibPadSlice
import proofs.«166119_j5952824673078_2_alg».proof.Proof.RefValue

set_option maxRecDepth 16384

noncomputable section

namespace Cert.KernelIdeal.KValue

open Idealize.ShloMosaic Idealize.ShloMosaic.TcCoe Idealize.ShloMosaic.StableHlo Idealize.ShloMosaic.ValueIdx
open Idealize.SL.Sem Cert.KernelIdeal Cert.KernelIdeal.Gen
open Cert.KernelIdeal.RegionValue (prodArr)

variable (m : (ℓ : Loc nD τ sig) → Buf (Elt Ideal) ℓ) (ρ : Dev nD → PrngReg)

/-- The padding function's two operations do not write the first layer's weights. -/
theorem w1_at_entry (c : Dev nD) :
    W9 m ρ c (Proc.devRef .tc main_v40) = StableHlo.after hostOps1 (W7 m ρ c) (Proc.devRef .tc main_v40) :=
  StableHlo.after_of_forall_not_mem (b := Proc.devRef .tc main_v40) _ _ (List.forall_iff_forall_mem.mp (by
    simp only [hostOps1_1, List.Forall, StableHlo.nullary_writes, StableHlo.unary_writes, StableHlo.binary_writes,
      StableHlo.ternary_writes, Finset.mem_singleton]
    repeat' apply And.intro
    all_goals exact StableHlo.devRef_ne_of_ne (by decide)))

/-- Nor the second layer's. -/
theorem w2_at_entry (c : Dev nD) :
    W9 m ρ c (Proc.devRef .tc main_v47) = StableHlo.after hostOps1 (W7 m ρ c) (Proc.devRef .tc main_v47) :=
  StableHlo.after_of_forall_not_mem (b := Proc.devRef .tc main_v47) _ _ (List.forall_iff_forall_mem.mp (by
    simp only [hostOps1_1, List.Forall, StableHlo.nullary_writes, StableHlo.unary_writes, StableHlo.binary_writes,
      StableHlo.ternary_writes, Finset.mem_singleton]
    repeat' apply And.intro
    all_goals exact StableHlo.devRef_ne_of_ne (by decide)))

/-- From launch contents that agree on the six arguments, the kernel program's result is the network of the reference's
    masked rows, weights and gathered layer arrays. -/
theorem kernel_result (c : Dev nD) (WR : Valuation Cert.ReferenceIdeal.τ Cert.ReferenceIdeal.sig (Elt Ideal))
    (h0 : WR (Proc.devRef .tc Cert.ReferenceIdeal.main_arg0) = m ((c : Thread nD τ).loc main_arg0))
    (h1 : WR (Proc.devRef .tc Cert.ReferenceIdeal.main_arg1) = m ((c : Thread nD τ).loc main_arg1))
    (h2 : WR (Proc.devRef .tc Cert.ReferenceIdeal.main_arg2) = m ((c : Thread nD τ).loc main_arg2))
    (h3 : WR (Proc.devRef .tc Cert.ReferenceIdeal.main_arg3) = m ((c : Thread nD τ).loc main_arg3))
    (h4 : WR (Proc.devRef .tc Cert.ReferenceIdeal.main_arg4) = m ((c : Thread nD τ).loc main_arg4))
    (h5 : WR (Proc.devRef .tc Cert.ReferenceIdeal.main_arg5) = m ((c : Thread nD τ).loc main_arg5)) :
    (W11 m ρ c (Proc.devRef .tc main_v57) : S2048x1000.Idx → EReal)
      = Cert.Spec.netArr (Cert.ReferenceIdeal.RefValue.embR WR) (WR (Proc.devRef .tc Cert.ReferenceIdeal.main_arg1))
          (Cert.ReferenceIdeal.RefValue.gatR1 WR) (Cert.ReferenceIdeal.RefValue.gatR2 WR)
          (Cert.ReferenceIdeal.RefValue.gatR3 WR) := by
  have hE : (V6 m ρ c main_v32 : S2048x50x512.Idx → EReal) = Cert.ReferenceIdeal.RefValue.embR WR :=
    Cert.Bridge.emb_bridge (W0 m ρ c) WR _ _ rfl rfl h0 h2
  have hw : (V6 m ρ c main_arg1 : S2048x50.Idx → EReal) = WR (Proc.devRef .tc Cert.ReferenceIdeal.main_arg1) :=
    (weights_at_entry m ρ c).trans h1.symm
  have hG1 : (V9 m ρ c main_v40 : S512x2048.Idx → EReal) = Cert.ReferenceIdeal.RefValue.gatR1 WR :=
    (w1_at_entry m ρ c).trans
      (Cert.Bridge.gather1_bridge (W7 m ρ c) WR _ _ (table_at_exit m ρ c) (arg3_at_exit m ρ c) h2 h3)
  have hG2 : (V9 m ρ c main_v47 : S2048x2048.Idx → EReal) = Cert.ReferenceIdeal.RefValue.gatR2 WR :=
    (w2_at_entry m ρ c).trans
      (Cert.Bridge.gather2_bridge (W7 m ρ c) WR _ _ (table_at_exit m ρ c) (arg4_at_exit m ρ c) h2 h4)
  have hG3 : (V9 m ρ c main_v55 : S2048x1024.Idx → EReal)
      = pad S2048x1024 ![0, 0] ![0, 24] ![0, 0] (Cert.ReferenceIdeal.RefValue.gatR3 WR : S2048x1000.Idx → EReal)
          Cert.Bridge.padValue pads_S2048x1000_S2048x1024_000_0240 h_S_ :=
    Cert.Bridge.gather3_bridge (W7 m ρ c) WR _ _ (table_at_exit m ρ c) (arg5_at_exit m ρ c) h2 h5
  rw [result_slice, region1_out]
  unfold Cert.KernelIdeal.MlpValue.layers Cert.Spec.netArr Cert.Spec.mlpArr
  rw [pooled, hE, hw, hG1, hG2, hG3]
  exact Cert.PadSlice.prod_pad_slice _ _ _ _ _ _ _

end Cert.KernelIdeal.KValue

end
-- ==== Proof.lean ====
/-
  A HASHED-WEIGHT NETWORK: pooled hashed embeddings through three linear layers, kernel against reference.

  Both programs read one table of two million numbers.  For each of 2048 histories of 50 indices they build, by the same
  integer hash, fifty rows of 512 table entries (rows of the index zero replaced by zero), pool them with one weight per
  row, `h (b, d) = ∑ l, e (b, l, d) · w (b, l)`, and apply three linear layers `((h · W₁) · W₂) · W₃` whose weight arrays
  are the table gathered at three given index arrays.

  The kernel program rounds the table to a narrower float format first, pools in one pipelined region (sixteen bands of
  128 histories; the fifty rows summed in five runs of ten) and applies the layers in a second (four bands of 512 rows;
  the last weight array padded from 1000 to 1024 columns, the result cut back to 1000).  At the ideal values a change of
  format is the identity, the five partial sums are the one sum (addition of extended reals is associative and `0 + x =
  x`), a matrix product's row depends on the same row of its left operand only, so bands of rows computed apart are the
  bands of the whole product, and the padded columns of a product are exactly the columns the slice drops.  No
  distributivity or cancellation is used, so finiteness of the inputs is never needed.

  `frame_Kernel` and `frame_KernelIdeal` are the generated frames; `frame_ReferenceIdeal` is the reference's run with
  the result dropped; `preserves_Kernel_KernelIdeal` has no entry; `algebraic_KernelIdeal_ReferenceIdeal` puts the two
  runs side by side, both results the specification's network (`Cert.Spec.netArr`) of the reference's own arrays.
-/
import proofs.«166119_j5952824673078_2_alg».proof.Defs
import proofs.«166119_j5952824673078_2_alg».proof.Proof.Gen.Kernel
import proofs.«166119_j5952824673078_2_alg».proof.Proof.Gen.Kernel.Skeleton
import proofs.«166119_j5952824673078_2_alg».proof.Proof.Gen.Kernel.Launch
import proofs.«166119_j5952824673078_2_alg».proof.Proof.Gen.Kernel.Points
import proofs.«166119_j5952824673078_2_alg».proof.Proof.Gen.Kernel.Frame
import proofs.«166119_j5952824673078_2_alg».proof.Proof.Gen.KernelIdeal
import proofs.«166119_j5952824673078_2_alg».proof.Proof.Gen.KernelIdeal.Skeleton
import proofs.«166119_j5952824673078_2_alg».proof.Proof.Gen.KernelIdeal.Launch
import proofs.«166119_j5952824673078_2_alg».proof.Proof.Gen.KernelIdeal.Points
import proofs.«166119_j5952824673078_2_alg».proof.Proof.Gen.KernelIdeal.Frame
import proofs.«166119_j5952824673078_2_alg».proof.Proof.Gen.ReferenceIdeal
import proofs.«166119_j5952824673078_2_alg».proof.Proof.Gen.Pre_finite_inputs
import proofs.«166119_j5952824673078_2_alg».proof.Proof.KRun
import proofs.«166119_j5952824673078_2_alg».proof.Proof.KValue
import proofs.«166119_j5952824673078_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefValue.run m ρ)

/-- From memories that agree on the six arguments both programs end with the network of the reference's masked rows,
    weights and gathered layer arrays in their result buffers, and the arguments as launched. -/
theorem algebraic : Cert.algebraic_KernelIdeal_ReferenceIdeal := by
  intro m ρ m' ρ' _ hagree
  refine ⟨fun c => Cert.Spec.netArr (Cert.ReferenceIdeal.RefValue.embR (StableHlo.launchContents m' c))
      (m' ((c.tc : Thread Cert.ReferenceIdeal.nD Cert.ReferenceIdeal.τ).loc Cert.ReferenceIdeal.main_arg1))
      (Cert.ReferenceIdeal.RefValue.gatR1 (StableHlo.launchContents m' c))
      (Cert.ReferenceIdeal.RefValue.gatR2 (StableHlo.launchContents m' c))
      (Cert.ReferenceIdeal.RefValue.gatR3 (StableHlo.launchContents m' c)), ?_, ?_⟩
  · refine (θ_run Cert.KernelIdeal.defs _ _).mono (fun r h c => ⟨(h c).1.trans ?_, (h c).2⟩)
      (Cert.KernelIdeal.KRun.run (F := Ideal) m ρ)
    obtain ⟨a0, a1, a2, a3, a4, a5⟩ := hagree c
    exact Cert.KernelIdeal.KValue.kernel_result m ρ c (StableHlo.launchContents m' c) a0 a1 a2 a3 a4 a5
  · exact Cert.ReferenceIdeal.RefValue.run m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
